-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) (main_arg2 : FVec F S8192x128 .f32) (main_arg3 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S256x128 : Shape := ⟨2, ![256, 128]⟩
abbrev S256x1 : Shape := ⟨2, ![256, 1]⟩
abbrev S256x8192 : Shape := ⟨2, ![256, 8192]⟩
abbrev S1024x128 : Shape := ⟨2, ![1024, 128]⟩
abbrev S1x1024 : Shape := ⟨2, ![1, 1024]⟩
abbrev S256x1024 : Shape := ⟨2, ![256, 1024]⟩
abbrev S256 : Shape := ⟨1, ![256]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S256x1, .i32⟩
  | .local _ .vmem, ⟨3, _⟩ => ⟨S256x1, .i32⟩
  | .local _ .vmem, ⟨4, _⟩ => ⟨S8192x128, .f32⟩
  | .local _ .vmem, ⟨5, _⟩ => ⟨S1x8192, .i32⟩
  | .local _ .vmem, ⟨6, _⟩ => ⟨S256x1, .f32⟩
  | .local _ .vmem, ⟨7, _⟩ => ⟨S256x1, .f32⟩
  | .local _ .vmem, ⟨8, _⟩ => ⟨S256x8192, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32_45 : BitVec 32 := 0#32
  let c0_i32 : BitVec 32 := 0#32
  let c1_i32 : BitVec 32 := 1#32
  let arg13 : BitVec 32 := Scf.iv c0_i32 c1_i32 k0_t1
  let c1_i32_44 : BitVec 32 := 1#32
  let v50 : BitVec 32 := Scalar.muli arg13 c1_i32_44
  let v51 : BitVec 32 := Scalar.addi c0_i32_45 v50
  let c1024_i32 : BitVec 32 := 1024#32
  let v52 : BitVec 32 := Scalar.muli v51 c1024_i32
  v52
def k0_off1 (k0_t1 : Fin k0_t1_loop.trips) : Fin 2 → Nat :=
  let c0_i32_45 : BitVec 32 := 0#32
  let c0_i32 : BitVec 32 := 0#32
  let c1_i32 : BitVec 32 := 1#32
  let arg13 : BitVec 32 := Scf.iv c0_i32 c1_i32 k0_t1
  let c1_i32_44 : BitVec 32 := 1#32
  let v50 : BitVec 32 := Scalar.muli arg13 c1_i32_44
  let v51 : BitVec 32 := Scalar.addi c0_i32_45 v50
  let c1024_i32 : BitVec 32 := 1024#32
  let v52 : BitVec 32 := Scalar.muli v51 c1024_i32
  let v53 : BitVec 32 := v52
  let v54 : Index := Scalar.indexCast v53
  let c0_46 : Index := 0#32
  ![v54.toNat, 0]
def k0_off2 (k0_t1 : Fin k0_t1_loop.trips) : Fin 2 → Nat :=
  let c0_47 : Index := 0#32
  let c0_i32_45 : BitVec 32 := 0#32
  let c0_i32 : BitVec 32 := 0#32
  let c1_i32 : BitVec 32 := 1#32
  let arg13 : BitVec 32 := Scf.iv c0_i32 c1_i32 k0_t1
  let c1_i32_44 : BitVec 32 := 1#32
  let v50 : BitVec 32 := Scalar.muli arg13 c1_i32_44
  let v51 : BitVec 32 := Scalar.addi c0_i32_45 v50
  let c1024_i32 : BitVec 32 := 1024#32
  let v52 : BitVec 32 := Scalar.muli v51 c1024_i32
  let v53 : BitVec 32 := v52
  let v56 : Index := Scalar.indexCast v53
  ![0, v56.toNat]
def k0_off3 (k0_t1 : Fin k0_t1_loop.trips) : Fin 2 → Nat :=
  let c0_49 : Index := 0#32
  let c0_i32_45 : BitVec 32 := 0#32
  let c0_i32 : BitVec 32 := 0#32
  let c1_i32 : BitVec 32 := 1#32
  let arg13 : BitVec 32 := Scf.iv c0_i32 c1_i32 k0_t1
  let c1_i32_44 : BitVec 32 := 1#32
  let v50 : BitVec 32 := Scalar.muli arg13 c1_i32_44
  let v51 : BitVec 32 := Scalar.addi c0_i32_45 v50
  let c1024_i32 : BitVec 32 := 1024#32
  let v52 : BitVec 32 := Scalar.muli v51 c1024_i32
  let v53 : BitVec 32 := v52
  let v60 : Index := Scalar.indexCast v53
  ![0, v60.toNat]
@[reducible] def k0_t2_loop : Scf.Loop 32 :=
  let c0_i32_25 : BitVec 32 := 0#32
  let c8_i32_26 : BitVec 32 := 8#32
  let v30 : BitVec 32 := Scalar.addi c0_i32_25 c8_i32_26
  let c1_i32_27 : BitVec 32 := 1#32
  ⟨c0_i32_25, v30, c1_i32_27⟩
def k0_mult2 (k0_t2 : Fin k0_t2_loop.trips) : BitVec 32 :=
  let c0_i32_45 : BitVec 32 := 0#32
  let c0_i32_25 : BitVec 32 := 0#32
  let c1_i32_27 : BitVec 32 := 1#32
  let arg13 : BitVec 32 := Scf.iv c0_i32_25 c1_i32_27 k0_t2
  let c1_i32_44 : BitVec 32 := 1#32
  let v50 : BitVec 32 := Scalar.muli arg13 c1_i32_44
  let v51 : BitVec 32 := Scalar.addi c0_i32_45 v50
  let c1024_i32 : BitVec 32 := 1024#32
  let v52 : BitVec 32 := Scalar.muli v51 c1024_i32
  v52
def k0_off4 (k0_t2 : Fin k0_t2_loop.trips) : Fin 2 → Nat :=
  let c0_46 : Index := 0#32
  let c0_i32_45 : BitVec 32 := 0#32
  let c0_i32_25 : BitVec 32 := 0#32
  let c1_i32_27 : BitVec 32 := 1#32
  let arg13 : BitVec 32 := Scf.iv c0_i32_25 c1_i32_27 k0_t2
  let c1_i32_44 : BitVec 32 := 1#32
  let v50 : BitVec 32 := Scalar.muli arg13 c1_i32_44
  let v51 : BitVec 32 := Scalar.addi c0_i32_45 v50
  let c1024_i32 : BitVec 32 := 1024#32
  let v52 : BitVec 32 := Scalar.muli v51 c1024_i32
  let v53 : BitVec 32 := v52
  let v54 : Index := Scalar.indexCast v53
  ![0, v54.toNat]
def k0_off5 (k0_t2 : Fin k0_t2_loop.trips) : Fin 2 → Nat :=
  let c0_47 : Index := 0#32
  let c0_i32_45 : BitVec 32 := 0#32
  let c0_i32_25 : BitVec 32 := 0#32
  let c1_i32_27 : BitVec 32 := 1#32
  let arg13 : BitVec 32 := Scf.iv c0_i32_25 c1_i32_27 k0_t2
  let c1_i32_44 : BitVec 32 := 1#32
  let v50 : BitVec 32 := Scalar.muli arg13 c1_i32_44
  let v51 : BitVec 32 := Scalar.addi c0_i32_45 v50
  let c1024_i32 : BitVec 32 := 1024#32
  let v52 : BitVec 32 := Scalar.muli v51 c1024_i32
  let v53 : BitVec 32 := v52
  let v57 : Index := Scalar.indexCast v53
  ![0, v57.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S1024x128 : 0 < S1024x128.numel
  h_S1x1024 : 0 < S1x1024.numel
  shapeCasts_S1x1024_S1x1024 : S1x1024.ShapeCasts S1x1024
  h_S256x1024 : 0 < S256x1024.numel
  shapeCasts_S256x1024_S256x1024 : S256x1024.ShapeCasts S256x1024
  broadcasts_S1x1024_S256x1024 : S1x1024.Broadcasts S256x1024
  broadcasts_S256x1_S256x1024 : S256x1.Broadcasts S256x1024
  reduces_S256x1024_S256 : S256x1024.Reduces [1] S256
  shapeCasts_S256_S256x1 : S256.ShapeCasts S256x1
  natLt_1_32 : 1 < 32
  reducesTo_S8192x1_S_d0_1 : S8192x1.ReducesTo [0, 1] S_
  h_S_ : 0 < S_.numel
  dot_S256x128_S1024x128_S256x1024_1_1_0_0_n_n_wf : DotDims.WF S256x128 S1024x128 S256x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1x1024.size a ≤ S1x8192.size a
  k0_off3_inb : ∀ k0_t1 : Fin k0_t1_loop.trips, ∀ a, (k0_off3 k0_t1) a + S256x1024.size a ≤ S256x8192.size a
  k0_t2_ok : k0_t2_loop.OK
  k0_mult2_dvd : ∀ k0_t2 : Fin k0_t2_loop.trips, 1024 ∣ (k0_mult2 k0_t2).toNat
  k0_off4_inb : ∀ k0_t2 : Fin k0_t2_loop.trips, ∀ a, (k0_off4 k0_t2) a + S1x1024.size a ≤ S1x8192.size a
  k0_off5_inb : ∀ k0_t2 : Fin k0_t2_loop.trips, ∀ a, (k0_off5 k0_t2) a + S256x1024.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S1x8192 : Shape := ⟨2, ![1, 8192]⟩
abbrev S8192x1 : Shape := ⟨2, ![8192, 1]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S8192, .i32⟩
  | .hbm, ⟨4, _⟩ => ⟨S128x8192, .f32⟩
  | .hbm, ⟨5, _⟩ => ⟨S8192x8192, .f32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S8192x8192, .i1⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .i1⟩
  | .hbm, ⟨35, _⟩ => ⟨S8192x8192, .i1⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .i1⟩
  | .hbm, ⟨41, _⟩ => ⟨S8192x8192, .i1⟩
  | .hbm, ⟨42, _⟩ => ⟨S_, .i1⟩
  | .hbm, ⟨43, _⟩ => ⟨S8192, .i1⟩
  | .hbm, ⟨44, _⟩ => ⟨S_, .i1⟩
  | .hbm, ⟨45, _⟩ => ⟨S8192, .i1⟩
  | .hbm, ⟨46, _⟩ => ⟨S8192, .i1⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_call2_v0 : Ref sig .tc := ⟨.hbm, 54, rfl⟩
abbrev main_call2_v1 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_cst_11 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_call3_v0 : Ref sig .tc := ⟨.hbm, 67, rfl⟩
abbrev main_call3_v1 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_17 : Ref sig .tc := ⟨.hbm, 82, rfl⟩
abbrev main_call4_v0 : Ref sig .tc := ⟨.hbm, 83, rfl⟩
abbrev main_call4_v1 : Ref sig .tc := ⟨.hbm, 84, rfl⟩
abbrev main_v51 : Ref sig .tc := ⟨.hbm, 85, rfl⟩
abbrev main_cst_18 : Ref sig .tc := ⟨.hbm, 86, rfl⟩
abbrev main_v52 : Ref sig .tc := ⟨.hbm, 87, rfl⟩
abbrev main_cst_19 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelTrips.lean ====
/-
  One trip of each of the body's two loops, read as values: the pieces a trip stores, as the payload terms of what it
  loads — the keys' and labels' chunk at the trip's offset, the similarity chunk, and each running accumulator as the
  trip finds it.
-/
import proofs.«176112_j1769526526575_2_alg».proof.Proof.Gen.Kernel.Loops

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A trip of the first loop stores the similarity chunk at the trip's columns, and the running row minimum and
    maximum folded with the chunk's. -/
theorem trip1_pieces (𝒱 : Variants) (c : Dev nD) (bd : Option 𝒱.V) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (v0 : Vec F S256x128 .f32) (v1 : Vec F S256x1 .i32) (X3 : BufTy.Contents (Elt F) arg3.view.ty) (X4 : BufTy.Contents (Elt F) arg4.view.ty) (k : Fin k0_t1_loop.trips) (f6 : BufTy.Contents (Elt F) arg6.view.ty) (f7 : BufTy.Contents (Elt F) arg7.view.ty) (f8 : BufTy.Contents (Elt F) arg8.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v1 X3 X4 k f6 f7 f8
      = ([⟨Rect.unit (s := S256x8192) (k0_off3 k) S256x1024.size (k0_off3_inb k), k0_pay8 v0 (View.readAt (Elt F) arg3.view (Rect.unit (s := S8192x128) (k0_off1 k) S1024x128.size (k0_off1_inb k)).toLoadRect X3)⟩],
         [⟨(Rect.unit (s := S256x1) ![0, 0] S256x1.size inb_S256x1_S256x1_0_0), k0_pay10 v0 (k0_pay17 v1) (View.readAt (Elt F) arg3.view (Rect.unit (s := S8192x128) (k0_off1 k) S1024x128.size (k0_off1_inb k)).toLoadRect X3) (View.readAt (Elt F) arg4.view (Rect.unit (s := S1x8192) (k0_off2 k) S1x1024.size (k0_off2_inb k)).toLoadRect X4) (View.readAt (Elt F) arg7.view (Rect.unit (s := S256x1) ![0, 0] S256x1.size inb_S256x1_S256x1_0_0).toLoadRect f7)⟩],
         [⟨(Rect.unit (s := S256x1) ![0, 0] S256x1.size inb_S256x1_S256x1_0_0), k0_pay20 (k0_pay11 v0 (k0_pay17 v1) (View.readAt (Elt F) arg3.view (Rect.unit (s := S8192x128) (k0_off1 k) S1024x128.size (k0_off1_inb k)).toLoadRect X3) (View.readAt (Elt F) arg4.view (Rect.unit (s := S1x8192) (k0_off2 k) S1x1024.size (k0_off2_inb k)).toLoadRect X4) (View.readAt (Elt F) arg8.view (Rect.unit (s := S256x1) ![0, 0] S256x1.size inb_S256x1_S256x1_0_0).toLoadRect f8))⟩]) := by
  unfold tripL_k0_t1 trip_k0_t1
  dsimp only
  sl_unfold_run_names
  rfl

/-- A trip of the second loop adds the chunk's row sums to the four running sums. -/
theorem trip2_pieces (𝒱 : Variants) (c : Dev nD) (bd : Option 𝒱.V) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (v2 : IVec S256x1 32) (v12 : Vec F S256x1 .f32) (v13 : Vec F S256x1 .f32) (X4 : BufTy.Contents (Elt F) arg4.view.ty) (X6 : BufTy.Contents (Elt F) arg6.view.ty) (k : Fin k0_t2_loop.trips) (f9 : BufTy.Contents (Elt F) arg9.view.ty) (f10 : BufTy.Contents (Elt F) arg10.view.ty) (f11 : BufTy.Contents (Elt F) arg11.view.ty) (f12 : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 v2 v12 v13 X4 X6 k f9 f10 f11 f12
      = ([⟨(Rect.unit (s := S256x1) ![0, 0] S256x1.size inb_S256x1_S256x1_0_0), k0_pay2 (k0_pay15 v2 v13 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg9.view (Rect.unit (s := S256x1) ![0, 0] S256x1.size inb_S256x1_S256x1_0_0).toLoadRect f9)⟩],
         [⟨(Rect.unit (s := S256x1) ![0, 0] S256x1.size inb_S256x1_S256x1_0_0), k0_pay3 (k0_pay16 v2 v12 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg10.view (Rect.unit (s := S256x1) ![0, 0] S256x1.size inb_S256x1_S256x1_0_0).toLoadRect f10)⟩],
         [⟨(Rect.unit (s := S256x1) ![0, 0] S256x1.size inb_S256x1_S256x1_0_0), k0_pay4 (k0_pay14 v2 v13 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg11.view (Rect.unit (s := S256x1) ![0, 0] S256x1.size inb_S256x1_S256x1_0_0).toLoadRect f11)⟩],
         [⟨(Rect.unit (s := S256x1) ![0, 0] S256x1.size inb_S256x1_S256x1_0_0), k0_pay5 (k0_pay13 v2 v12 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg12.view (Rect.unit (s := S256x1) ![0, 0] S256x1.size inb_S256x1_S256x1_0_0).toLoadRect f12)⟩]) := by
  unfold tripL_k0_t2 trip_k0_t2
  dsimp only
  sl_unfold_run_names
  rfl

end Cert.Kernel.Out

end
-- ==== Proof.KernelBody.lean ====
/-
  The kernel body's result as ONE pure function of its four input blocks, at any float instance: the similarity chunks,
  the running row minimum / maximum over the eight column chunks, the four running row sums of the second pass over the
  same chunks, and the final per-row loss — each written with the payload terms the printed body computes, the chunk of
  trip k being the keys' rows 1024·k … 1024·k + 1023 (and the labels' columns in the same range).
-/
import proofs.«176112_j1769526526575_2_alg».proof.Proof.Gen.Kernel.Skeleton
import Idealize.ShloMosaic.Lib.Pipeline.FrameBody

noncomputable section

namespace Cert.Kernel.Body

open Cert.Kernel Cert.Kernel.Gen Idealize.ShloMosaic

variable {F : FTy → Type} [FloatOps F]

theorem keys_inb (k : ℕ) (hk : k < 8) : ∀ a, (![1024 * k, 0] : Fin 2 → ℕ) a + S1024x128.size a ≤ S8192x128.size a := by
  intro a; fin_cases a
  · show 1024 * k + 1024 ≤ 8192; omega
  · show 0 + 128 ≤ 128; omega

theorem labs_inb (k : ℕ) (hk : k < 8) : ∀ a, (![0, 1024 * k] : Fin 2 → ℕ) a + S1x1024.size a ≤ S1x8192.size a := by
  intro a; fin_cases a
  · show 0 + 1 ≤ 1; omega
  · show 1024 * k + 1024 ≤ 8192; omega

theorem sims_inb (k : ℕ) (hk : k < 8) : ∀ a, (![0, 1024 * k] : Fin 2 → ℕ) a + S256x1024.size a ≤ S256x8192.size a := by
  intro a; fin_cases a
  · show 0 + 256 ≤ 256; omega
  · show 1024 * k + 1024 ≤ 8192; omega

variable (x0 : Vec F S256x128 .f32) (x1 : Vec F S256x1 .i32) (x2 : Vec F S8192x128 .f32) (x3 : Vec F S1x8192 .i32)

/-- Chunk k of the keys: rows 1024·k … 1024·k + 1023. -/
def keys (k : ℕ) (hk : k < 8) : Vec F S1024x128 .f32 :=
  View.ld x2 (Rect.unit (s := S8192x128) ![1024 * k, 0] S1024x128.size (keys_inb k hk))

/-- Chunk k of the key labels: columns 1024·k … 1024·k + 1023. -/
def labs (k : ℕ) (hk : k < 8) : Vec F S1x1024 .i32 :=
  View.ld x3 (Rect.unit (s := S1x8192) ![0, 1024 * k] S1x1024.size (labs_inb k hk))

/-- The similarity chunk: the block's 256 queries against chunk k of the keys. -/
def sims (k : ℕ) (hk : k < 8) : FVec F S256x1024 .f32 := k0_pay8 x0 (keys x2 k hk)

/-- The running row minimum of the masked similarities after the first k chunks. -/
def minAcc : ℕ → Vec F S256x1 .f32
  | 0 => k0_pay18
  | k + 1 => if h : k < 8 then k0_pay10 x0 (k0_pay17 x1) (keys x2 k h) (labs x3 k h) (minAcc k) else minAcc k

/-- The running row maximum of the masked similarities after the first k chunks. -/
def maxAcc : ℕ → Vec F S256x1 .f32
  | 0 => k0_pay19
  | k + 1 => if h : k < 8 then k0_pay20 (k0_pay11 x0 (k0_pay17 x1) (keys x2 k h) (labs x3 k h) (maxAcc k)) else maxAcc k

/-- The running row sum of the mined positive exponentials after the first k chunks. -/
def posSum : ℕ → Vec F S256x1 .f32
  | 0 => k0_pay21
  | k + 1 => if h : k < 8 then
      k0_pay2 (k0_pay15 (k0_pay17 x1) (maxAcc x0 x1 x2 x3 8) (labs x3 k h) (sims x0 x2 k h)) (posSum k) else posSum k

/-- The running row sum of the mined negative exponentials after the first k chunks. -/
def negSum : ℕ → Vec F S256x1 .f32
  | 0 => k0_pay22
  | k + 1 => if h : k < 8 then
      k0_pay3 (k0_pay16 (k0_pay17 x1) (minAcc x0 x1 x2 x3 8) (labs x3 k h) (sims x0 x2 k h)) (negSum k) else negSum k

/-- The running row count of the mined positives after the first k chunks. -/
def posCnt : ℕ → Vec F S256x1 .f32
  | 0 => k0_pay23
  | k + 1 => if h : k < 8 then
      k0_pay4 (k0_pay14 (k0_pay17 x1) (maxAcc x0 x1 x2 x3 8) (labs x3 k h) (sims x0 x2 k h)) (posCnt k) else posCnt k

/-- The running row count of the mined negatives after the first k chunks. -/
def negCnt : ℕ → Vec F S256x1 .f32
  | 0 => k0_pay1
  | k + 1 => if h : k < 8 then
      k0_pay5 (k0_pay13 (k0_pay17 x1) (minAcc x0 x1 x2 x3 8) (labs x3 k h) (sims x0 x2 k h)) (negCnt k) else negCnt k

/-- What the body stores in its output block: the per-row loss of the block's 256 rows. -/
def body : FVec F S256x1 .f32 :=
  k0_pay6 (posSum x0 x1 x2 x3 8) (negSum x0 x1 x2 x3 8) (posCnt x0 x1 x2 x3 8) (negCnt x0 x1 x2 x3 8)

end Cert.Kernel.Body

end
-- ==== Proof.LibUnitReads.lean ====
/-
  Reading a buffer back through the pieces written into it, for pieces that are unit-stride rectangles, any shape,
  any element type: a load of the whole shape reads the contents; the newest piece, when it is the whole shape, is what
  the buffer then reads; a load of a unit-stride rectangle reads the newest piece's payload when that piece is the same
  rectangle, and looks past the newest piece when the two rectangles are disjoint along some axis.
-/
import Idealize.ShloMosaic.Lib.WritesUnit
import Idealize.ShloMosaic.Lib.Pipeline.Value
import Idealize.ShloMosaic.Lib.WholeRead

namespace Idealize.ShloMosaic.LibUnitReads

open Idealize.ShloMosaic View

variable {sig : RefSig} {κ : Kind} {sp : Space} {S : Shape} {e : EltTy} {Val : EltTy → Type}

/-- A load through the whole-shape rectangle at zero offsets reads what the view reads. -/
theorem readAt_whole (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- After a newest piece that is the whole shape, the view reads that piece's payload. -/
theorem read_writes_cons_whole (v : View sig κ sp S e) (f : v.ty.Contents Val) {off : Fin S.rank → ℕ} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst h
  funext y
  exact View.read_writes_cons_unit_of_mem v f inb w L y y rfl (fun a => by simp)

/-- A load of a unit-stride rectangle after a newest piece that is the same rectangle reads that piece's payload. -/
theorem readAt_unit_cons_hit (v : View sig κ sp S e) (f : v.ty.Contents Val) {off off' size : Fin S.rank → ℕ}
    (inb : ∀ a, off a + size a ≤ S.size a) (inb' : ∀ a, off' a + size a ≤ S.size a)
    (w : (Rect.unit off size inb).shape.Idx → Val e) (L : List (Piece Val S e)) (heq : off = off') :
    v.readAt Val (Rect.unit off' size inb').toLoadRect (v.writes Val f ((⟨Rect.unit off size inb, w⟩ : Piece Val S e) :: L)) = w := by
  funext x
  rw [View.readAt_apply]
  exact View.read_writes_cons_unit_of_mem v f inb w L _ x heq (fun a => by
    show off' a + 1 * (x a).val = off' a + (x a).val
    rw [Nat.one_mul])

/-- A load of a unit-stride rectangle looks past a newest piece whose rectangle is disjoint from it along axis a. -/
theorem readAt_unit_cons_miss (v : View sig κ sp S e) (f : v.ty.Contents Val) {off off' off'' size size'' : Fin S.rank → ℕ}
    (inb : ∀ a, off a + size a ≤ S.size a) (inb'' : ∀ a, off'' a + size'' a ≤ S.size a)
    (w : (Rect.unit off size inb).shape.Idx → Val e) (L : List (Piece Val S e)) (heq : off = off') (a : Fin S.rank)
    (ha : off'' a + size'' a ≤ off' a ∨ off' a + size a ≤ off'' a) :
    v.readAt Val (Rect.unit off'' size'' inb'').toLoadRect (v.writes Val f ((⟨Rect.unit off size inb, w⟩ : Piece Val S e) :: L))
      = v.readAt Val (Rect.unit off'' size'' inb'').toLoadRect (v.writes Val f L) := by
  funext x
  rw [View.readAt_apply, View.readAt_apply]
  refine View.read_writes_cons_unit_of_not_mem v f inb w L _ heq a ?_
  have hx : (((Rect.unit off'' size'' inb'').toLoadRect.idx x) a).val = off'' a + 1 * (x a).val := rfl
  have hlt : (x a).val < size'' a := (x a).isLt
  rw [hx, Nat.one_mul]
  rcases ha with ha | ha
  · left; omega
  · right; omega

end Idealize.ShloMosaic.LibUnitReads
-- ==== Proof.KernelLoop1.lean ====
/-
  The first loop of the body, read as values: after k trips the running row minimum and maximum are the folds
  Body.minAcc k and Body.maxAcc k over the first k column chunks, and each of the first k chunks of the similarity
  scratch reads back as the chunk's similarities, whatever the scratch held before.
-/
import proofs.«176112_j1769526526575_2_alg».proof.Proof.KernelTrips
import proofs.«176112_j1769526526575_2_alg».proof.Proof.KernelBody
import proofs.«176112_j1769526526575_2_alg».proof.Proof.LibUnitReads

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zero2 : (![0, 0] : Fin 2 → ℕ) = fun _ => 0 := by
  funext a; fin_cases a <;> rfl

variable (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole)
variable (x0 : Vec F S256x128 .f32) (x1 : Vec F S256x1 .i32) (x2 : Vec F S8192x128 .f32) (x3 : Vec F S1x8192 .i32)

/-- The first loop's load of the keys at trip k reads chunk k of the keys. -/
theorem read_keys (k : Fin k0_t1_loop.trips) (h8 : k.val < 8) :
    View.readAt (Elt F) arg3.view (Rect.unit (s := S8192x128) (k0_off1 k) S1024x128.size (k0_off1_inb k)).toLoadRect (harg3.unread x2)
      = Body.keys x2 k.val h8 := by
  rw [View.readAt_unit_congr arg3.view (k0_off1_eq k) (k0_off1_inb k) (Body.keys_inb k.val h8)]
  show View.ld (arg3.view.read (Elt F) (harg3.unread x2)) _ = _
  rw [harg3.read_unread]
  rfl

/-- The first loop's load of the key labels at trip k reads chunk k of the labels. -/
theorem read_labs (k : Fin k0_t1_loop.trips) (h8 : k.val < 8) :
    View.readAt (Elt F) arg4.view (Rect.unit (s := S1x8192) (k0_off2 k) S1x1024.size (k0_off2_inb k)).toLoadRect (harg4.unread x3)
      = Body.labs x3 k.val h8 := by
  rw [View.readAt_unit_congr arg4.view (k0_off2_eq k) (k0_off2_inb k) (Body.labs_inb k.val h8)]
  show View.ld (arg4.view.read (Elt F) (harg4.unread x3)) _ = _
  rw [harg4.read_unread]
  rfl

/-- After k trips of the first loop. -/
theorem loop1 (G6 : BufTy.Contents (Elt F) arg6.view.ty) (G7 : BufTy.Contents (Elt F) arg7.view.ty) (G8 : BufTy.Contents (Elt F) arg8.view.ty)
    (hG7 : arg7.view.read (Elt F) G7 = k0_pay18) (hG8 : arg8.view.read (Elt F) G8 = k0_pay19) :
    ∀ k : ℕ, k ≤ k0_t1_loop.trips →
      arg7.view.read (Elt F) (arg7.view.writes (Elt F) G7 (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 k).2.1) = Body.minAcc x0 x1 x2 x3 k
      ∧ arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 k).2.2) = Body.maxAcc x0 x1 x2 x3 k
      ∧ ∀ (k' : ℕ) (hk' : k' < k) (h8 : k' < 8),
          View.readAt (Elt F) arg6.view (Rect.unit (s := S256x8192) ![0, 1024 * k'] S256x1024.size (Body.sims_inb k' h8)).toLoadRect
              (arg6.view.writes (Elt F) G6 (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 k).1)
            = Body.sims x0 x2 k' h8 := by
  intro k
  induction k with
  | zero =>
    intro _
    refine ⟨hG7, hG8, fun k' hk' _ => absurd hk' (Nat.not_lt_zero _)⟩
  | succ k ih =>
    intro hk
    have hk' : k < k0_t1_loop.trips := hk
    have h8 : k < 8 := lt_of_lt_of_le hk' k0_t1_abs.2.1
    obtain ⟨ih7, ih8, ih6⟩ := ih (Nat.le_of_lt hk')
    have hs := pb_k0_t1_succ (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 ⟨k, hk'⟩
    rw [trip1_pieces] at hs
    have hs' : (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 (k + 1)) = _ := hs
    rw [hs']
    have e7 : Body.minAcc x0 x1 x2 x3 (k + 1)
        = k0_pay10 x0 (k0_pay17 x1) (Body.keys x2 k h8) (Body.labs x3 k h8) (Body.minAcc x0 x1 x2 x3 k) := by
      rw [Body.minAcc, dif_pos h8]
    have e8 : Body.maxAcc x0 x1 x2 x3 (k + 1)
        = k0_pay20 (k0_pay11 x0 (k0_pay17 x1) (Body.keys x2 k h8) (Body.labs x3 k h8) (Body.maxAcc x0 x1 x2 x3 k)) := by
      rw [Body.maxAcc, dif_pos h8]
    refine ⟨?_, ?_, ?_⟩
    · rw [e7]
      dsimp only [List.singleton_append, List.cons_append, List.nil_append]
      rw [LibUnitReads.read_writes_cons_whole arg7.view G7 zero2,
        read_keys arg3 harg3 x2 ⟨k, hk'⟩ h8, read_labs arg4 harg4 x3 ⟨k, hk'⟩ h8,
        LibUnitReads.readAt_whole arg7.view _ zero2, ih7]
    · rw [e8]
      dsimp only [List.singleton_append, List.cons_append, List.nil_append]
      rw [LibUnitReads.read_writes_cons_whole arg8.view G8 zero2,
        read_keys arg3 harg3 x2 ⟨k, hk'⟩ h8, read_labs arg4 harg4 x3 ⟨k, hk'⟩ h8,
        LibUnitReads.readAt_whole arg8.view _ zero2, ih8]
    · intro k' hk'' h8'
      dsimp only [List.singleton_append, List.cons_append, List.nil_append]
      rcases Nat.lt_succ_iff_lt_or_eq.mp hk'' with hlt | rfl
      · rw [LibUnitReads.readAt_unit_cons_miss arg6.view G6 (k0_off3_inb ⟨k, hk'⟩) (Body.sims_inb k' h8') _ _
          (k0_off3_eq ⟨k, hk'⟩) (1 : Fin 2) (Or.inl (by show 1024 * k' + 1024 ≤ 1024 * k; omega))]
        exact ih6 k' hlt h8'
      · rw [LibUnitReads.readAt_unit_cons_hit arg6.view G6 (k0_off3_inb ⟨k', hk'⟩) (Body.sims_inb k' h8') _ _
          (k0_off3_eq ⟨k', hk'⟩)]
        rw [read_keys arg3 harg3 x2 ⟨k', hk'⟩ h8']
        rfl

end Cert.Kernel.Out

end
-- ==== Proof.KernelLoop2.lean ====
/-
  The second loop of the body, read as values: given that the similarity scratch reads back chunk by chunk as the
  similarities, after k trips the four running row sums are the folds Body.posSum k, Body.negSum k, Body.posCnt k and
  Body.negCnt k over the first k column chunks.
-/
import proofs.«176112_j1769526526575_2_alg».proof.Proof.KernelLoop1

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole)
variable (x0 : Vec F S256x128 .f32) (x1 : Vec F S256x1 .i32) (x2 : Vec F S8192x128 .f32) (x3 : Vec F S1x8192 .i32)

/-- The second loop's load of the key labels at trip k reads chunk k of the labels. -/
theorem read_labs2 (k : Fin k0_t2_loop.trips) (h8 : k.val < 8) :
    View.readAt (Elt F) arg4.view (Rect.unit (s := S1x8192) (k0_off4 k) S1x1024.size (k0_off4_inb k)).toLoadRect (harg4.unread x3)
      = Body.labs x3 k.val h8 := by
  rw [View.readAt_unit_congr arg4.view (k0_off4_eq k) (k0_off4_inb k) (Body.labs_inb k.val h8)]
  show View.ld (arg4.view.read (Elt F) (harg4.unread x3)) _ = _
  rw [harg4.read_unread]
  rfl

/-- After k trips of the second loop. -/
theorem loop2 (X6 : BufTy.Contents (Elt F) arg6.view.ty)
    (hX6 : ∀ (k' : ℕ) (h8 : k' < 8),
      View.readAt (Elt F) arg6.view (Rect.unit (s := S256x8192) ![0, 1024 * k'] S256x1024.size (Body.sims_inb k' h8)).toLoadRect X6
        = Body.sims x0 x2 k' h8)
    (G9 : BufTy.Contents (Elt F) arg9.view.ty) (G10 : BufTy.Contents (Elt F) arg10.view.ty)
    (G11 : BufTy.Contents (Elt F) arg11.view.ty) (G12 : BufTy.Contents (Elt F) arg12.view.ty)
    (hG9 : arg9.view.read (Elt F) G9 = k0_pay21) (hG10 : arg10.view.read (Elt F) G10 = k0_pay22)
    (hG11 : arg11.view.read (Elt F) G11 = k0_pay23) (hG12 : arg12.view.read (Elt F) G12 = k0_pay1) :
    ∀ k : ℕ, k ≤ k0_t2_loop.trips →
      arg9.view.read (Elt F) (arg9.view.writes (Elt F) G9 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).1) = Body.posSum x0 x1 x2 x3 k
      ∧ arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).2.1) = Body.negSum x0 x1 x2 x3 k
      ∧ arg11.view.read (Elt F) (arg11.view.writes (Elt F) G11 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).2.2.1) = Body.posCnt x0 x1 x2 x3 k
      ∧ arg12.view.read (Elt F) (arg12.view.writes (Elt F) G12 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).2.2.2) = Body.negCnt x0 x1 x2 x3 k := by
  intro k
  induction k with
  | zero =>
    intro _
    exact ⟨hG9, hG10, hG11, hG12⟩
  | succ k ih =>
    intro hk
    have hk' : k < k0_t2_loop.trips := hk
    have h8 : k < 8 := lt_of_lt_of_le hk' k0_t2_abs.2.1
    obtain ⟨ih9, ih10, ih11, ih12⟩ := ih (Nat.le_of_lt hk')
    have hs := pb_k0_t2_succ (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 ⟨k, hk'⟩
    rw [trip2_pieces] at hs
    have hs' : (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 (k + 1)) = _ := hs
    rw [hs']
    have hsim : View.readAt (Elt F) arg6.view (Rect.unit (s := S256x8192) (k0_off5 ⟨k, hk'⟩) S256x1024.size (k0_off5_inb ⟨k, hk'⟩)).toLoadRect X6
        = Body.sims x0 x2 k h8 := by
      rw [View.readAt_unit_congr arg6.view (k0_off5_eq ⟨k, hk'⟩) (k0_off5_inb ⟨k, hk'⟩) (Body.sims_inb k h8)]
      exact hX6 k h8
    have e9 : Body.posSum x0 x1 x2 x3 (k + 1)
        = k0_pay2 (k0_pay15 (k0_pay17 x1) (Body.maxAcc x0 x1 x2 x3 8) (Body.labs x3 k h8) (Body.sims x0 x2 k h8)) (Body.posSum x0 x1 x2 x3 k) := by
      rw [Body.posSum, dif_pos h8]
    have e10 : Body.negSum x0 x1 x2 x3 (k + 1)
        = k0_pay3 (k0_pay16 (k0_pay17 x1) (Body.minAcc x0 x1 x2 x3 8) (Body.labs x3 k h8) (Body.sims x0 x2 k h8)) (Body.negSum x0 x1 x2 x3 k) := by
      rw [Body.negSum, dif_pos h8]
    have e11 : Body.posCnt x0 x1 x2 x3 (k + 1)
        = k0_pay4 (k0_pay14 (k0_pay17 x1) (Body.maxAcc x0 x1 x2 x3 8) (Body.labs x3 k h8) (Body.sims x0 x2 k h8)) (Body.posCnt x0 x1 x2 x3 k) := by
      rw [Body.posCnt, dif_pos h8]
    have e12 : Body.negCnt x0 x1 x2 x3 (k + 1)
        = k0_pay5 (k0_pay13 (k0_pay17 x1) (Body.minAcc x0 x1 x2 x3 8) (Body.labs x3 k h8) (Body.sims x0 x2 k h8)) (Body.negCnt x0 x1 x2 x3 k) := by
      rw [Body.negCnt, dif_pos h8]
    refine ⟨?_, ?_, ?_, ?_⟩
    · rw [e9]
      dsimp only [List.singleton_append, List.cons_append, List.nil_append]
      rw [LibUnitReads.read_writes_cons_whole arg9.view G9 zero2, hsim,
        read_labs2 arg4 harg4 x3 ⟨k, hk'⟩ h8, LibUnitReads.readAt_whole arg9.view _ zero2, ih9]
    · rw [e10]
      dsimp only [List.singleton_append, List.cons_append, List.nil_append]
      rw [LibUnitReads.read_writes_cons_whole arg10.view G10 zero2, hsim,
        read_labs2 arg4 harg4 x3 ⟨k, hk'⟩ h8, LibUnitReads.readAt_whole arg10.view _ zero2, ih10]
    · rw [e11]
      dsimp only [List.singleton_append, List.cons_append, List.nil_append]
      rw [LibUnitReads.read_writes_cons_whole arg11.view G11 zero2, hsim,
        read_labs2 arg4 harg4 x3 ⟨k, hk'⟩ h8, LibUnitReads.readAt_whole arg11.view _ zero2, ih11]
    · rw [e12]
      dsimp only [List.singleton_append, List.cons_append, List.nil_append]
      rw [LibUnitReads.read_writes_cons_whole arg12.view G12 zero2, hsim,
        read_labs2 arg4 harg4 x3 ⟨k, hk'⟩ h8, LibUnitReads.readAt_whole arg12.view _ zero2, ih12]

end Cert.Kernel.Out

end
-- ==== Proof.KernelOut.lean ====
/-
  The kernel body's run, read as a value: the one piece it leaves in the output block is the whole block, holding the
  pure function Body.body of the four input blocks — in particular it does not depend on what the similarity scratch
  read when the body was entered, because the first loop's eight chunk stores tile that scratch before the second loop
  reads it.
-/
import proofs.«176112_j1769526526575_2_alg».proof.Proof.KernelRunA
import proofs.«176112_j1769526526575_2_alg».proof.Proof.KernelLoop2

set_option maxRecDepth 16384

noncomputable section

namespace Cert.Kernel.Out

open Cert.Kernel Cert.Kernel.Gen Cert.Kernel.GenP Cert.Kernel.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips1_eq : Scf.trips k0_t1_loop.lb k0_t1_loop.ub k0_t1_loop.st = 8 := by decide +kernel
theorem trips2_eq : Scf.trips k0_t2_loop.lb k0_t2_loop.ub k0_t2_loop.st = 8 := by decide +kernel
theorem le_trips1 : 8 ≤ k0_t1_loop.trips := by decide +kernel
theorem le_trips2 : 8 ≤ k0_t2_loop.trips := by decide +kernel

/-- A load of the whole shape through a whole memref held at the contents that read X reads X. -/
theorem readAt_whole_unread {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [LibUnitReads.readAt_whole m.view _ hz inb, h.read_unread]

theorem run_pieces (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (x0 : Vec F S256x128 .f32) (x1 : Vec F S256x1 .i32) (x2 : Vec F S8192x128 .f32) (x3 : Vec F S1x8192 .i32) (d6 : Vec F S256x8192 .f32) :
    (kernelRun0_A (F := F) c i arg1 harg1 arg2 harg2 arg3 harg3 arg4 harg4 arg5 harg5 arg6 harg6 arg7 harg7 arg8 harg8 arg9 harg9 arg10 harg10 arg11 harg11 arg12 harg12 x0 x1 x2 x3 d6).1
      = [⟨Rect.unit (s := S256x1) ![0, 0] S256x1.size inb_S256x1_S256x1_0_0, Body.body x0 x1 x2 x3⟩] := by
  have hG7 : arg7.view.read (Elt F) (arg7.view.writes (Elt F) arg7.view.junk [⟨(Rect.unit (s := S256x1) ![0, 0] S256x1.size inb_S256x1_S256x1_0_0), k0_pay18⟩]) = k0_pay18 :=
    LibUnitReads.read_writes_cons_whole arg7.view _ zero2 _ _ _
  have hG8 : arg8.view.read (Elt F) (arg8.view.writes (Elt F) arg8.view.junk [⟨(Rect.unit (s := S256x1) ![0, 0] S256x1.size inb_S256x1_S256x1_0_0), k0_pay19⟩]) = k0_pay19 :=
    LibUnitReads.read_writes_cons_whole arg8.view _ zero2 _ _ _
  have hG9 : arg9.view.read (Elt F) (arg9.view.writes (Elt F) arg9.view.junk [⟨(Rect.unit (s := S256x1) ![0, 0] S256x1.size inb_S256x1_S256x1_0_0), k0_pay21⟩]) = k0_pay21 :=
    LibUnitReads.read_writes_cons_whole arg9.view _ zero2 _ _ _
  have hG10 : arg10.view.read (Elt F) (arg10.view.writes (Elt F) arg10.view.junk [⟨(Rect.unit (s := S256x1) ![0, 0] S256x1.size inb_S256x1_S256x1_0_0), k0_pay22⟩]) = k0_pay22 :=
    LibUnitReads.read_writes_cons_whole arg10.view _ zero2 _ _ _
  have hG11 : arg11.view.read (Elt F) (arg11.view.writes (Elt F) arg11.view.junk [⟨(Rect.unit (s := S256x1) ![0, 0] S256x1.size inb_S256x1_S256x1_0_0), k0_pay23⟩]) = k0_pay23 :=
    LibUnitReads.read_writes_cons_whole arg11.view _ zero2 _ _ _
  have hG12 : arg12.view.read (Elt F) (arg12.view.writes (Elt F) arg12.view.junk [⟨(Rect.unit (s := S256x1) ![0, 0] S256x1.size inb_S256x1_S256x1_0_0), k0_pay1⟩]) = k0_pay1 :=
    LibUnitReads.read_writes_cons_whole arg12.view _ zero2 _ _ _
  obtain ⟨h17, h18, h16⟩ := loop1 c i arg1 harg1 arg2 harg2 arg3 harg3 arg4 harg4 arg5 harg5 arg6 harg6 arg7 harg7 arg8 harg8 arg9 harg9 arg10 harg10 arg11 harg11 arg12 harg12 x0 x1 x2 x3 (harg6.unread d6) _ _ hG7 hG8 8 le_trips1
  obtain ⟨h29, h210, h211, h212⟩ := loop2 c i arg1 harg1 arg2 harg2 arg3 harg3 arg4 harg4 arg5 harg5 arg6 harg6 arg7 harg7 arg8 harg8 arg9 harg9 arg10 harg10 arg11 harg11 arg12 harg12 x0 x1 x2 x3 _ (fun k' h8 => h16 k' h8 h8) _ _ _ _ hG9 hG10 hG11 hG12 8 le_trips2
  unfold kernelRun0_A
  dsimp only
  sl_unfold_run_names
  rw [trips1_eq]
  try rw [trips2_eq]
  first | rw [readAt_whole_unread arg1 harg1 x0 zero2, readAt_whole_unread arg2 harg2 x1 zero2] | fail "step A: input reads"
  first | simp only [View.writes_append] | fail "step B: writes_append"
  first | rw [LibUnitReads.readAt_whole arg7.view _ zero2, LibUnitReads.readAt_whole arg8.view _ zero2] | fail "step C1: readAt_whole 7/8"
  first | rw [h17, h18] | fail "step C2: loop1 facts"
  first | rw [LibUnitReads.readAt_whole arg9.view _ zero2, LibUnitReads.readAt_whole arg10.view _ zero2,
    LibUnitReads.readAt_whole arg11.view _ zero2, LibUnitReads.readAt_whole arg12.view _ zero2] | fail "step D1: readAt_whole 9-12"
  first | rw [h29, h210, h211, h212] | fail "step D2: loop2 facts"
  first | rfl | fail "step E: rfl"

theorem run_indep (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (x0 : Vec F S256x128 .f32) (x1 : Vec F S256x1 .i32) (x2 : Vec F S8192x128 .f32) (x3 : Vec F S1x8192 .i32) (d6 d6' : Vec F S256x8192 .f32) :
    (kernelRun0_A (F := F) c i arg1 harg1 arg2 harg2 arg3 harg3 arg4 harg4 arg5 harg5 arg6 harg6 arg7 harg7 arg8 harg8 arg9 harg9 arg10 harg10 arg11 harg11 arg12 harg12 x0 x1 x2 x3 d6).1 = (kernelRun0_A (F := F) c i arg1 harg1 arg2 harg2 arg3 harg3 arg4 harg4 arg5 harg5 arg6 harg6 arg7 harg7 arg8 harg8 arg9 harg9 arg10 harg10 arg11 harg11 arg12 harg12 x0 x1 x2 x3 d6').1 := by
  rw [run_pieces, run_pieces]

end Cert.Kernel.Out

end
-- ==== Proof.KernelIdealTrips.lean ====
/-
  One trip of each of the body's two loops, read as values: the pieces a trip stores, as the payload terms of what it
  loads — the keys' and labels' chunk at the trip's offset, the similarity chunk, and each running accumulator as the
  trip finds it.
-/
import proofs.«176112_j1769526526575_2_alg».proof.Proof.Gen.KernelIdeal.Loops

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A trip of the first loop stores the similarity chunk at the trip's columns, and the running row minimum and
    maximum folded with the chunk's. -/
theorem trip1_pieces (𝒱 : Variants) (c : Dev nD) (bd : Option 𝒱.V) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (v0 : Vec F S256x128 .f32) (v1 : Vec F S256x1 .i32) (X3 : BufTy.Contents (Elt F) arg3.view.ty) (X4 : BufTy.Contents (Elt F) arg4.view.ty) (k : Fin k0_t1_loop.trips) (f6 : BufTy.Contents (Elt F) arg6.view.ty) (f7 : BufTy.Contents (Elt F) arg7.view.ty) (f8 : BufTy.Contents (Elt F) arg8.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v0 v1 X3 X4 k f6 f7 f8
      = ([⟨Rect.unit (s := S256x8192) (k0_off3 k) S256x1024.size (k0_off3_inb k), k0_pay8 v0 (View.readAt (Elt F) arg3.view (Rect.unit (s := S8192x128) (k0_off1 k) S1024x128.size (k0_off1_inb k)).toLoadRect X3)⟩],
         [⟨(Rect.unit (s := S256x1) ![0, 0] S256x1.size inb_S256x1_S256x1_0_0), k0_pay10 v0 (k0_pay17 v1) (View.readAt (Elt F) arg3.view (Rect.unit (s := S8192x128) (k0_off1 k) S1024x128.size (k0_off1_inb k)).toLoadRect X3) (View.readAt (Elt F) arg4.view (Rect.unit (s := S1x8192) (k0_off2 k) S1x1024.size (k0_off2_inb k)).toLoadRect X4) (View.readAt (Elt F) arg7.view (Rect.unit (s := S256x1) ![0, 0] S256x1.size inb_S256x1_S256x1_0_0).toLoadRect f7)⟩],
         [⟨(Rect.unit (s := S256x1) ![0, 0] S256x1.size inb_S256x1_S256x1_0_0), k0_pay20 (k0_pay11 v0 (k0_pay17 v1) (View.readAt (Elt F) arg3.view (Rect.unit (s := S8192x128) (k0_off1 k) S1024x128.size (k0_off1_inb k)).toLoadRect X3) (View.readAt (Elt F) arg4.view (Rect.unit (s := S1x8192) (k0_off2 k) S1x1024.size (k0_off2_inb k)).toLoadRect X4) (View.readAt (Elt F) arg8.view (Rect.unit (s := S256x1) ![0, 0] S256x1.size inb_S256x1_S256x1_0_0).toLoadRect f8))⟩]) := by
  unfold tripL_k0_t1 trip_k0_t1
  dsimp only
  sl_unfold_run_names
  rfl

/-- A trip of the second loop adds the chunk's row sums to the four running sums. -/
theorem trip2_pieces (𝒱 : Variants) (c : Dev nD) (bd : Option 𝒱.V) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (v2 : IVec S256x1 32) (v12 : Vec F S256x1 .f32) (v13 : Vec F S256x1 .f32) (X4 : BufTy.Contents (Elt F) arg4.view.ty) (X6 : BufTy.Contents (Elt F) arg6.view.ty) (k : Fin k0_t2_loop.trips) (f9 : BufTy.Contents (Elt F) arg9.view.ty) (f10 : BufTy.Contents (Elt F) arg10.view.ty) (f11 : BufTy.Contents (Elt F) arg11.view.ty) (f12 : BufTy.Contents (Elt F) arg12.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 v2 v12 v13 X4 X6 k f9 f10 f11 f12
      = ([⟨(Rect.unit (s := S256x1) ![0, 0] S256x1.size inb_S256x1_S256x1_0_0), k0_pay2 (k0_pay15 v2 v13 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg9.view (Rect.unit (s := S256x1) ![0, 0] S256x1.size inb_S256x1_S256x1_0_0).toLoadRect f9)⟩],
         [⟨(Rect.unit (s := S256x1) ![0, 0] S256x1.size inb_S256x1_S256x1_0_0), k0_pay3 (k0_pay16 v2 v12 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg10.view (Rect.unit (s := S256x1) ![0, 0] S256x1.size inb_S256x1_S256x1_0_0).toLoadRect f10)⟩],
         [⟨(Rect.unit (s := S256x1) ![0, 0] S256x1.size inb_S256x1_S256x1_0_0), k0_pay4 (k0_pay14 v2 v13 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg11.view (Rect.unit (s := S256x1) ![0, 0] S256x1.size inb_S256x1_S256x1_0_0).toLoadRect f11)⟩],
         [⟨(Rect.unit (s := S256x1) ![0, 0] S256x1.size inb_S256x1_S256x1_0_0), k0_pay5 (k0_pay13 v2 v12 (View.readAt (Elt F) arg4.view (Rect.unit (s := S1x8192) (k0_off4 k) S1x1024.size (k0_off4_inb k)).toLoadRect X4) (View.readAt (Elt F) arg6.view (Rect.unit (s := S256x8192) (k0_off5 k) S256x1024.size (k0_off5_inb k)).toLoadRect X6)) (View.readAt (Elt F) arg12.view (Rect.unit (s := S256x1) ![0, 0] S256x1.size inb_S256x1_S256x1_0_0).toLoadRect f12)⟩]) := by
  unfold tripL_k0_t2 trip_k0_t2
  dsimp only
  sl_unfold_run_names
  rfl

end Cert.KernelIdeal.Out

end
-- ==== Proof.KernelIdealBody.lean ====
/-
  The kernel body's result as ONE pure function of its four input blocks, at any float instance: the similarity chunks,
  the running row minimum / maximum over the eight column chunks, the four running row sums of the second pass over the
  same chunks, and the final per-row loss — each written with the payload terms the printed body computes, the chunk of
  trip k being the keys' rows 1024·k … 1024·k + 1023 (and the labels' columns in the same range).
-/
import proofs.«176112_j1769526526575_2_alg».proof.Proof.Gen.KernelIdeal.Skeleton
import Idealize.ShloMosaic.Lib.Pipeline.FrameBody

noncomputable section

namespace Cert.KernelIdeal.Body

open Cert.KernelIdeal Cert.KernelIdeal.Gen Idealize.ShloMosaic

variable {F : FTy → Type} [FloatOps F]

theorem keys_inb (k : ℕ) (hk : k < 8) : ∀ a, (![1024 * k, 0] : Fin 2 → ℕ) a + S1024x128.size a ≤ S8192x128.size a := by
  intro a; fin_cases a
  · show 1024 * k + 1024 ≤ 8192; omega
  · show 0 + 128 ≤ 128; omega

theorem labs_inb (k : ℕ) (hk : k < 8) : ∀ a, (![0, 1024 * k] : Fin 2 → ℕ) a + S1x1024.size a ≤ S1x8192.size a := by
  intro a; fin_cases a
  · show 0 + 1 ≤ 1; omega
  · show 1024 * k + 1024 ≤ 8192; omega

theorem sims_inb (k : ℕ) (hk : k < 8) : ∀ a, (![0, 1024 * k] : Fin 2 → ℕ) a + S256x1024.size a ≤ S256x8192.size a := by
  intro a; fin_cases a
  · show 0 + 256 ≤ 256; omega
  · show 1024 * k + 1024 ≤ 8192; omega

variable (x0 : Vec F S256x128 .f32) (x1 : Vec F S256x1 .i32) (x2 : Vec F S8192x128 .f32) (x3 : Vec F S1x8192 .i32)

/-- Chunk k of the keys: rows 1024·k … 1024·k + 1023. -/
def keys (k : ℕ) (hk : k < 8) : Vec F S1024x128 .f32 :=
  View.ld x2 (Rect.unit (s := S8192x128) ![1024 * k, 0] S1024x128.size (keys_inb k hk))

/-- Chunk k of the key labels: columns 1024·k … 1024·k + 1023. -/
def labs (k : ℕ) (hk : k < 8) : Vec F S1x1024 .i32 :=
  View.ld x3 (Rect.unit (s := S1x8192) ![0, 1024 * k] S1x1024.size (labs_inb k hk))

/-- The similarity chunk: the block's 256 queries against chunk k of the keys. -/
def sims (k : ℕ) (hk : k < 8) : FVec F S256x1024 .f32 := k0_pay8 x0 (keys x2 k hk)

/-- The running row minimum of the masked similarities after the first k chunks. -/
def minAcc : ℕ → Vec F S256x1 .f32
  | 0 => k0_pay18
  | k + 1 => if h : k < 8 then k0_pay10 x0 (k0_pay17 x1) (keys x2 k h) (labs x3 k h) (minAcc k) else minAcc k

/-- The running row maximum of the masked similarities after the first k chunks. -/
def maxAcc : ℕ → Vec F S256x1 .f32
  | 0 => k0_pay19
  | k + 1 => if h : k < 8 then k0_pay20 (k0_pay11 x0 (k0_pay17 x1) (keys x2 k h) (labs x3 k h) (maxAcc k)) else maxAcc k

/-- The running row sum of the mined positive exponentials after the first k chunks. -/
def posSum : ℕ → Vec F S256x1 .f32
  | 0 => k0_pay21
  | k + 1 => if h : k < 8 then
      k0_pay2 (k0_pay15 (k0_pay17 x1) (maxAcc x0 x1 x2 x3 8) (labs x3 k h) (sims x0 x2 k h)) (posSum k) else posSum k

/-- The running row sum of the mined negative exponentials after the first k chunks. -/
def negSum : ℕ → Vec F S256x1 .f32
  | 0 => k0_pay22
  | k + 1 => if h : k < 8 then
      k0_pay3 (k0_pay16 (k0_pay17 x1) (minAcc x0 x1 x2 x3 8) (labs x3 k h) (sims x0 x2 k h)) (negSum k) else negSum k

/-- The running row count of the mined positives after the first k chunks. -/
def posCnt : ℕ → Vec F S256x1 .f32
  | 0 => k0_pay23
  | k + 1 => if h : k < 8 then
      k0_pay4 (k0_pay14 (k0_pay17 x1) (maxAcc x0 x1 x2 x3 8) (labs x3 k h) (sims x0 x2 k h)) (posCnt k) else posCnt k

/-- The running row count of the mined negatives after the first k chunks. -/
def negCnt : ℕ → Vec F S256x1 .f32
  | 0 => k0_pay1
  | k + 1 => if h : k < 8 then
      k0_pay5 (k0_pay13 (k0_pay17 x1) (minAcc x0 x1 x2 x3 8) (labs x3 k h) (sims x0 x2 k h)) (negCnt k) else negCnt k

/-- What the body stores in its output block: the per-row loss of the block's 256 rows. -/
def body : FVec F S256x1 .f32 :=
  k0_pay6 (posSum x0 x1 x2 x3 8) (negSum x0 x1 x2 x3 8) (posCnt x0 x1 x2 x3 8) (negCnt x0 x1 x2 x3 8)

end Cert.KernelIdeal.Body

end
-- ==== Proof.KernelIdealLoop1.lean ====
/-
  The first loop of the body, read as values: after k trips the running row minimum and maximum are the folds
  Body.minAcc k and Body.maxAcc k over the first k column chunks, and each of the first k chunks of the similarity
  scratch reads back as the chunk's similarities, whatever the scratch held before.
-/
import proofs.«176112_j1769526526575_2_alg».proof.Proof.KernelIdealTrips
import proofs.«176112_j1769526526575_2_alg».proof.Proof.KernelIdealBody
import proofs.«176112_j1769526526575_2_alg».proof.Proof.LibUnitReads

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zero2 : (![0, 0] : Fin 2 → ℕ) = fun _ => 0 := by
  funext a; fin_cases a <;> rfl

variable (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole)
variable (x0 : Vec F S256x128 .f32) (x1 : Vec F S256x1 .i32) (x2 : Vec F S8192x128 .f32) (x3 : Vec F S1x8192 .i32)

/-- The first loop's load of the keys at trip k reads chunk k of the keys. -/
theorem read_keys (k : Fin k0_t1_loop.trips) (h8 : k.val < 8) :
    View.readAt (Elt F) arg3.view (Rect.unit (s := S8192x128) (k0_off1 k) S1024x128.size (k0_off1_inb k)).toLoadRect (harg3.unread x2)
      = Body.keys x2 k.val h8 := by
  rw [View.readAt_unit_congr arg3.view (k0_off1_eq k) (k0_off1_inb k) (Body.keys_inb k.val h8)]
  show View.ld (arg3.view.read (Elt F) (harg3.unread x2)) _ = _
  rw [harg3.read_unread]
  rfl

/-- The first loop's load of the key labels at trip k reads chunk k of the labels. -/
theorem read_labs (k : Fin k0_t1_loop.trips) (h8 : k.val < 8) :
    View.readAt (Elt F) arg4.view (Rect.unit (s := S1x8192) (k0_off2 k) S1x1024.size (k0_off2_inb k)).toLoadRect (harg4.unread x3)
      = Body.labs x3 k.val h8 := by
  rw [View.readAt_unit_congr arg4.view (k0_off2_eq k) (k0_off2_inb k) (Body.labs_inb k.val h8)]
  show View.ld (arg4.view.read (Elt F) (harg4.unread x3)) _ = _
  rw [harg4.read_unread]
  rfl

/-- After k trips of the first loop. -/
theorem loop1 (G6 : BufTy.Contents (Elt F) arg6.view.ty) (G7 : BufTy.Contents (Elt F) arg7.view.ty) (G8 : BufTy.Contents (Elt F) arg8.view.ty)
    (hG7 : arg7.view.read (Elt F) G7 = k0_pay18) (hG8 : arg8.view.read (Elt F) G8 = k0_pay19) :
    ∀ k : ℕ, k ≤ k0_t1_loop.trips →
      arg7.view.read (Elt F) (arg7.view.writes (Elt F) G7 (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 k).2.1) = Body.minAcc x0 x1 x2 x3 k
      ∧ arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 k).2.2) = Body.maxAcc x0 x1 x2 x3 k
      ∧ ∀ (k' : ℕ) (hk' : k' < k) (h8 : k' < 8),
          View.readAt (Elt F) arg6.view (Rect.unit (s := S256x8192) ![0, 1024 * k'] S256x1024.size (Body.sims_inb k' h8)).toLoadRect
              (arg6.view.writes (Elt F) G6 (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 k).1)
            = Body.sims x0 x2 k' h8 := by
  intro k
  induction k with
  | zero =>
    intro _
    refine ⟨hG7, hG8, fun k' hk' _ => absurd hk' (Nat.not_lt_zero _)⟩
  | succ k ih =>
    intro hk
    have hk' : k < k0_t1_loop.trips := hk
    have h8 : k < 8 := lt_of_lt_of_le hk' k0_t1_abs.2.1
    obtain ⟨ih7, ih8, ih6⟩ := ih (Nat.le_of_lt hk')
    have hs := pb_k0_t1_succ (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 ⟨k, hk'⟩
    rw [trip1_pieces] at hs
    have hs' : (pb_k0_t1 (F := F) Variants.none c none i arg1 harg1 arg2 harg2 arg3 harg3 arg4 harg4 arg5 harg5 arg6 harg6 arg7 harg7 arg8 harg8 arg9 harg9 arg10 harg10 arg11 harg11 arg12 harg12 x0 x1 (harg3.unread x2) (harg4.unread x3) G6 G7 G8 (k + 1)) = _ := hs
    rw [hs']
    have e7 : Body.minAcc x0 x1 x2 x3 (k + 1)
        = k0_pay10 x0 (k0_pay17 x1) (Body.keys x2 k h8) (Body.labs x3 k h8) (Body.minAcc x0 x1 x2 x3 k) := by
      rw [Body.minAcc, dif_pos h8]
    have e8 : Body.maxAcc x0 x1 x2 x3 (k + 1)
        = k0_pay20 (k0_pay11 x0 (k0_pay17 x1) (Body.keys x2 k h8) (Body.labs x3 k h8) (Body.maxAcc x0 x1 x2 x3 k)) := by
      rw [Body.maxAcc, dif_pos h8]
    refine ⟨?_, ?_, ?_⟩
    · rw [e7]
      dsimp only [List.singleton_append, List.cons_append, List.nil_append]
      rw [LibUnitReads.read_writes_cons_whole arg7.view G7 zero2,
        read_keys arg3 harg3 x2 ⟨k, hk'⟩ h8, read_labs arg4 harg4 x3 ⟨k, hk'⟩ h8,
        LibUnitReads.readAt_whole arg7.view _ zero2, ih7]
    · rw [e8]
      dsimp only [List.singleton_append, List.cons_append, List.nil_append]
      rw [LibUnitReads.read_writes_cons_whole arg8.view G8 zero2,
        read_keys arg3 harg3 x2 ⟨k, hk'⟩ h8, read_labs arg4 harg4 x3 ⟨k, hk'⟩ h8,
        LibUnitReads.readAt_whole arg8.view _ zero2, ih8]
    · intro k' hk'' h8'
      dsimp only [List.singleton_append, List.cons_append, List.nil_append]
      rcases Nat.lt_succ_iff_lt_or_eq.mp hk'' with hlt | rfl
      · rw [LibUnitReads.readAt_unit_cons_miss arg6.view G6 (k0_off3_inb ⟨k, hk'⟩) (Body.sims_inb k' h8') _ _
          (k0_off3_eq ⟨k, hk'⟩) (1 : Fin 2) (Or.inl (by show 1024 * k' + 1024 ≤ 1024 * k; omega))]
        exact ih6 k' hlt h8'
      · rw [LibUnitReads.readAt_unit_cons_hit arg6.view G6 (k0_off3_inb ⟨k', hk'⟩) (Body.sims_inb k' h8') _ _
          (k0_off3_eq ⟨k', hk'⟩)]
        rw [read_keys arg3 harg3 x2 ⟨k', hk'⟩ h8']
        rfl

end Cert.KernelIdeal.Out

end
-- ==== Proof.KernelIdealLoop2.lean ====
/-
  The second loop of the body, read as values: given that the similarity scratch reads back chunk by chunk as the
  similarities, after k trips the four running row sums are the folds Body.posSum k, Body.negSum k, Body.posCnt k and
  Body.negCnt k over the first k column chunks.
-/
import proofs.«176112_j1769526526575_2_alg».proof.Proof.KernelIdealLoop1

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole)
variable (x0 : Vec F S256x128 .f32) (x1 : Vec F S256x1 .i32) (x2 : Vec F S8192x128 .f32) (x3 : Vec F S1x8192 .i32)

/-- The second loop's load of the key labels at trip k reads chunk k of the labels. -/
theorem read_labs2 (k : Fin k0_t2_loop.trips) (h8 : k.val < 8) :
    View.readAt (Elt F) arg4.view (Rect.unit (s := S1x8192) (k0_off4 k) S1x1024.size (k0_off4_inb k)).toLoadRect (harg4.unread x3)
      = Body.labs x3 k.val h8 := by
  rw [View.readAt_unit_congr arg4.view (k0_off4_eq k) (k0_off4_inb k) (Body.labs_inb k.val h8)]
  show View.ld (arg4.view.read (Elt F) (harg4.unread x3)) _ = _
  rw [harg4.read_unread]
  rfl

/-- After k trips of the second loop. -/
theorem loop2 (X6 : BufTy.Contents (Elt F) arg6.view.ty)
    (hX6 : ∀ (k' : ℕ) (h8 : k' < 8),
      View.readAt (Elt F) arg6.view (Rect.unit (s := S256x8192) ![0, 1024 * k'] S256x1024.size (Body.sims_inb k' h8)).toLoadRect X6
        = Body.sims x0 x2 k' h8)
    (G9 : BufTy.Contents (Elt F) arg9.view.ty) (G10 : BufTy.Contents (Elt F) arg10.view.ty)
    (G11 : BufTy.Contents (Elt F) arg11.view.ty) (G12 : BufTy.Contents (Elt F) arg12.view.ty)
    (hG9 : arg9.view.read (Elt F) G9 = k0_pay21) (hG10 : arg10.view.read (Elt F) G10 = k0_pay22)
    (hG11 : arg11.view.read (Elt F) G11 = k0_pay23) (hG12 : arg12.view.read (Elt F) G12 = k0_pay1) :
    ∀ k : ℕ, k ≤ k0_t2_loop.trips →
      arg9.view.read (Elt F) (arg9.view.writes (Elt F) G9 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).1) = Body.posSum x0 x1 x2 x3 k
      ∧ arg10.view.read (Elt F) (arg10.view.writes (Elt F) G10 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).2.1) = Body.negSum x0 x1 x2 x3 k
      ∧ arg11.view.read (Elt F) (arg11.view.writes (Elt F) G11 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).2.2.1) = Body.posCnt x0 x1 x2 x3 k
      ∧ arg12.view.read (Elt F) (arg12.view.writes (Elt F) G12 (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 k).2.2.2) = Body.negCnt x0 x1 x2 x3 k := by
  intro k
  induction k with
  | zero =>
    intro _
    exact ⟨hG9, hG10, hG11, hG12⟩
  | succ k ih =>
    intro hk
    have hk' : k < k0_t2_loop.trips := hk
    have h8 : k < 8 := lt_of_lt_of_le hk' k0_t2_abs.2.1
    obtain ⟨ih9, ih10, ih11, ih12⟩ := ih (Nat.le_of_lt hk')
    have hs := pb_k0_t2_succ (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 ⟨k, hk'⟩
    rw [trip2_pieces] at hs
    have hs' : (pb_k0_t2 (F := F) Variants.none c none i arg1 harg1 arg2 harg2 arg3 harg3 arg4 harg4 arg5 harg5 arg6 harg6 arg7 harg7 arg8 harg8 arg9 harg9 arg10 harg10 arg11 harg11 arg12 harg12 (k0_pay17 x1) (Body.minAcc x0 x1 x2 x3 8) (Body.maxAcc x0 x1 x2 x3 8) (harg4.unread x3) X6 G9 G10 G11 G12 (k + 1)) = _ := hs
    rw [hs']
    have hsim : View.readAt (Elt F) arg6.view (Rect.unit (s := S256x8192) (k0_off5 ⟨k, hk'⟩) S256x1024.size (k0_off5_inb ⟨k, hk'⟩)).toLoadRect X6
        = Body.sims x0 x2 k h8 := by
      rw [View.readAt_unit_congr arg6.view (k0_off5_eq ⟨k, hk'⟩) (k0_off5_inb ⟨k, hk'⟩) (Body.sims_inb k h8)]
      exact hX6 k h8
    have e9 : Body.posSum x0 x1 x2 x3 (k + 1)
        = k0_pay2 (k0_pay15 (k0_pay17 x1) (Body.maxAcc x0 x1 x2 x3 8) (Body.labs x3 k h8) (Body.sims x0 x2 k h8)) (Body.posSum x0 x1 x2 x3 k) := by
      rw [Body.posSum, dif_pos h8]
    have e10 : Body.negSum x0 x1 x2 x3 (k + 1)
        = k0_pay3 (k0_pay16 (k0_pay17 x1) (Body.minAcc x0 x1 x2 x3 8) (Body.labs x3 k h8) (Body.sims x0 x2 k h8)) (Body.negSum x0 x1 x2 x3 k) := by
      rw [Body.negSum, dif_pos h8]
    have e11 : Body.posCnt x0 x1 x2 x3 (k + 1)
        = k0_pay4 (k0_pay14 (k0_pay17 x1) (Body.maxAcc x0 x1 x2 x3 8) (Body.labs x3 k h8) (Body.sims x0 x2 k h8)) (Body.posCnt x0 x1 x2 x3 k) := by
      rw [Body.posCnt, dif_pos h8]
    have e12 : Body.negCnt x0 x1 x2 x3 (k + 1)
        = k0_pay5 (k0_pay13 (k0_pay17 x1) (Body.minAcc x0 x1 x2 x3 8) (Body.labs x3 k h8) (Body.sims x0 x2 k h8)) (Body.negCnt x0 x1 x2 x3 k) := by
      rw [Body.negCnt, dif_pos h8]
    refine ⟨?_, ?_, ?_, ?_⟩
    · rw [e9]
      dsimp only [List.singleton_append, List.cons_append, List.nil_append]
      rw [LibUnitReads.read_writes_cons_whole arg9.view G9 zero2, hsim,
        read_labs2 arg4 harg4 x3 ⟨k, hk'⟩ h8, LibUnitReads.readAt_whole arg9.view _ zero2, ih9]
    · rw [e10]
      dsimp only [List.singleton_append, List.cons_append, List.nil_append]
      rw [LibUnitReads.read_writes_cons_whole arg10.view G10 zero2, hsim,
        read_labs2 arg4 harg4 x3 ⟨k, hk'⟩ h8, LibUnitReads.readAt_whole arg10.view _ zero2, ih10]
    · rw [e11]
      dsimp only [List.singleton_append, List.cons_append, List.nil_append]
      rw [LibUnitReads.read_writes_cons_whole arg11.view G11 zero2, hsim,
        read_labs2 arg4 harg4 x3 ⟨k, hk'⟩ h8, LibUnitReads.readAt_whole arg11.view _ zero2, ih11]
    · rw [e12]
      dsimp only [List.singleton_append, List.cons_append, List.nil_append]
      rw [LibUnitReads.read_writes_cons_whole arg12.view G12 zero2, hsim,
        read_labs2 arg4 harg4 x3 ⟨k, hk'⟩ h8, LibUnitReads.readAt_whole arg12.view _ zero2, ih12]

end Cert.KernelIdeal.Out

end
-- ==== Proof.KernelIdealOut.lean ====
/-
  The kernel body's run, read as a value: the one piece it leaves in the output block is the whole block, holding the
  pure function Body.body of the four input blocks — in particular it does not depend on what the similarity scratch
  read when the body was entered, because the first loop's eight chunk stores tile that scratch before the second loop
  reads it.
-/
import proofs.«176112_j1769526526575_2_alg».proof.Proof.KernelIdealRunA
import proofs.«176112_j1769526526575_2_alg».proof.Proof.KernelIdealLoop2

set_option maxRecDepth 16384

noncomputable section

namespace Cert.KernelIdeal.Out

open Cert.KernelIdeal Cert.KernelIdeal.Gen Cert.KernelIdeal.GenP Cert.KernelIdeal.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips1_eq : Scf.trips k0_t1_loop.lb k0_t1_loop.ub k0_t1_loop.st = 8 := by decide +kernel
theorem trips2_eq : Scf.trips k0_t2_loop.lb k0_t2_loop.ub k0_t2_loop.st = 8 := by decide +kernel
theorem le_trips1 : 8 ≤ k0_t1_loop.trips := by decide +kernel
theorem le_trips2 : 8 ≤ k0_t2_loop.trips := by decide +kernel

/-- A load of the whole shape through a whole memref held at the contents that read X reads X. -/
theorem readAt_whole_unread {s : Shape} {e : EltTy} (m : Memref sig .tc .vmem s e) (h : m.IsWhole) (X : s.Idx → Elt F e)
    {off : Fin s.rank → ℕ} (hz : off = fun _ => 0) (inb : ∀ a, off a + s.size a ≤ s.size a) :
    View.readAt (Elt F) m.view (Rect.unit off s.size inb).toLoadRect (h.unread X) = X := by
  rw [LibUnitReads.readAt_whole m.view _ hz inb, h.read_unread]

theorem run_pieces (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (x0 : Vec F S256x128 .f32) (x1 : Vec F S256x1 .i32) (x2 : Vec F S8192x128 .f32) (x3 : Vec F S1x8192 .i32) (d6 : Vec F S256x8192 .f32) :
    (kernelRun0_A (F := F) c i arg1 harg1 arg2 harg2 arg3 harg3 arg4 harg4 arg5 harg5 arg6 harg6 arg7 harg7 arg8 harg8 arg9 harg9 arg10 harg10 arg11 harg11 arg12 harg12 x0 x1 x2 x3 d6).1
      = [⟨Rect.unit (s := S256x1) ![0, 0] S256x1.size inb_S256x1_S256x1_0_0, Body.body x0 x1 x2 x3⟩] := by
  have hG7 : arg7.view.read (Elt F) (arg7.view.writes (Elt F) arg7.view.junk [⟨(Rect.unit (s := S256x1) ![0, 0] S256x1.size inb_S256x1_S256x1_0_0), k0_pay18⟩]) = k0_pay18 :=
    LibUnitReads.read_writes_cons_whole arg7.view _ zero2 _ _ _
  have hG8 : arg8.view.read (Elt F) (arg8.view.writes (Elt F) arg8.view.junk [⟨(Rect.unit (s := S256x1) ![0, 0] S256x1.size inb_S256x1_S256x1_0_0), k0_pay19⟩]) = k0_pay19 :=
    LibUnitReads.read_writes_cons_whole arg8.view _ zero2 _ _ _
  have hG9 : arg9.view.read (Elt F) (arg9.view.writes (Elt F) arg9.view.junk [⟨(Rect.unit (s := S256x1) ![0, 0] S256x1.size inb_S256x1_S256x1_0_0), k0_pay21⟩]) = k0_pay21 :=
    LibUnitReads.read_writes_cons_whole arg9.view _ zero2 _ _ _
  have hG10 : arg10.view.read (Elt F) (arg10.view.writes (Elt F) arg10.view.junk [⟨(Rect.unit (s := S256x1) ![0, 0] S256x1.size inb_S256x1_S256x1_0_0), k0_pay22⟩]) = k0_pay22 :=
    LibUnitReads.read_writes_cons_whole arg10.view _ zero2 _ _ _
  have hG11 : arg11.view.read (Elt F) (arg11.view.writes (Elt F) arg11.view.junk [⟨(Rect.unit (s := S256x1) ![0, 0] S256x1.size inb_S256x1_S256x1_0_0), k0_pay23⟩]) = k0_pay23 :=
    LibUnitReads.read_writes_cons_whole arg11.view _ zero2 _ _ _
  have hG12 : arg12.view.read (Elt F) (arg12.view.writes (Elt F) arg12.view.junk [⟨(Rect.unit (s := S256x1) ![0, 0] S256x1.size inb_S256x1_S256x1_0_0), k0_pay1⟩]) = k0_pay1 :=
    LibUnitReads.read_writes_cons_whole arg12.view _ zero2 _ _ _
  obtain ⟨h17, h18, h16⟩ := loop1 c i arg1 harg1 arg2 harg2 arg3 harg3 arg4 harg4 arg5 harg5 arg6 harg6 arg7 harg7 arg8 harg8 arg9 harg9 arg10 harg10 arg11 harg11 arg12 harg12 x0 x1 x2 x3 (harg6.unread d6) _ _ hG7 hG8 8 le_trips1
  obtain ⟨h29, h210, h211, h212⟩ := loop2 c i arg1 harg1 arg2 harg2 arg3 harg3 arg4 harg4 arg5 harg5 arg6 harg6 arg7 harg7 arg8 harg8 arg9 harg9 arg10 harg10 arg11 harg11 arg12 harg12 x0 x1 x2 x3 _ (fun k' h8 => h16 k' h8 h8) _ _ _ _ hG9 hG10 hG11 hG12 8 le_trips2
  unfold kernelRun0_A
  dsimp only
  sl_unfold_run_names
  rw [trips1_eq]
  try rw [trips2_eq]
  first | rw [readAt_whole_unread arg1 harg1 x0 zero2, readAt_whole_unread arg2 harg2 x1 zero2] | fail "step A: input reads"
  first | simp only [View.writes_append] | fail "step B: writes_append"
  first | rw [LibUnitReads.readAt_whole arg7.view _ zero2, LibUnitReads.readAt_whole arg8.view _ zero2] | fail "step C1: readAt_whole 7/8"
  first | rw [h17, h18] | fail "step C2: loop1 facts"
  first | rw [LibUnitReads.readAt_whole arg9.view _ zero2, LibUnitReads.readAt_whole arg10.view _ zero2,
    LibUnitReads.readAt_whole arg11.view _ zero2, LibUnitReads.readAt_whole arg12.view _ zero2] | fail "step D1: readAt_whole 9-12"
  first | rw [h29, h210, h211, h212] | fail "step D2: loop2 facts"
  first | rfl | fail "step E: rfl"

theorem run_indep (c : Dev nD) (i : grid0.Coords) (arg1 : Memref sig .tc .vmem S256x128 .f32) (harg1 : arg1.IsWhole) (arg2 : Memref sig .tc .vmem S256x1 .i32) (harg2 : arg2.IsWhole) (arg3 : Memref sig .tc .vmem S8192x128 .f32) (harg3 : arg3.IsWhole) (arg4 : Memref sig .tc .vmem S1x8192 .i32) (harg4 : arg4.IsWhole) (arg5 : Memref sig .tc .vmem S256x1 .f32) (harg5 : arg5.IsWhole) (arg6 : Memref sig .tc .vmem S256x8192 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (x0 : Vec F S256x128 .f32) (x1 : Vec F S256x1 .i32) (x2 : Vec F S8192x128 .f32) (x3 : Vec F S1x8192 .i32) (d6 d6' : Vec F S256x8192 .f32) :
    (kernelRun0_A (F := F) c i arg1 harg1 arg2 harg2 arg3 harg3 arg4 harg4 arg5 harg5 arg6 harg6 arg7 harg7 arg8 harg8 arg9 harg9 arg10 harg10 arg11 harg11 arg12 harg12 x0 x1 x2 x3 d6).1 = (kernelRun0_A (F := F) c i arg1 harg1 arg2 harg2 arg3 harg3 arg4 harg4 arg5 harg5 arg6 harg6 arg7 harg7 arg8 harg8 arg9 harg9 arg10 harg10 arg11 harg11 arg12 harg12 x0 x1 x2 x3 d6').1 := by
  rw [run_pieces, run_pieces]

end Cert.KernelIdeal.Out

end
-- ==== Proof.Spec.lean ====
/-
  The row-wise specification of the multi-similarity loss over the extended reals.

  For a query row q (width 128) with label tq, and 8192 key rows K with labels tk:
  the similarity to key j is the inner product; key j is a positive when the labels agree and
  the similarity is below the threshold word, a negative when the labels differ; the hardest
  positive is the least positive similarity (from +infinity), the hardest negative the greatest
  negative similarity (from -infinity); a negative is mined when its similarity plus the margin
  exceeds the hardest positive, a positive when its similarity minus the margin is below the
  hardest negative; the row's loss is log1p of the mined positives' sum of exponentials over 2
  plus log1p of the mined negatives' sum over 40 when both mined sets are not empty, else 0; the
  total is the sum of the rows' losses over 8192.  Float literals stay unevaluated words.
-/
import Mathlib
import Idealize.ShloMosaic.PureOps.Ideal
import Idealize.ShloMosaic.PureOps.Ideal.Laws
import Idealize.ShloMosaic.Lib.ValueIdx

noncomputable section

namespace Cert.Spec

open Idealize.ShloMosaic
open scoped BigOperators

/-! ## The literals, as the words the programs print -/

def cLt : EReal := Ideal.ofBits .f32 0x3F7FFF58#32
def cMargin : EReal := Ideal.ofBits .f32 0x3DCCCCCD#32
def cHalf : EReal := Ideal.ofBits .f32 0x3F000000#32
def cNeg2 : EReal := Ideal.ofBits .f32 0xC0000000#32
def c40 : EReal := Ideal.ofBits .f32 0x42200000#32
def c2 : EReal := Ideal.ofBits .f32 0x40000000#32
def c8192 : EReal := Ideal.ofBits .f32 0x46000000#32

/-- The two infinity words. -/
theorem ofBits_inf : Ideal.ofBits .f32 0x7F800000#32 = (⊤ : EReal) := by simp [Ideal.ofBits, Ideal.ieee]
theorem ofBits_ninf : Ideal.ofBits .f32 0xFF800000#32 = (⊥ : EReal) := by simp [Ideal.ofBits, Ideal.ieee]

/-- A one-bit word widened to 32 bits and converted signed: the real 0 or 1. -/
def ind (b : BitVec 1) : EReal := (((b.setWidth 32).toInt : ℝ) : EReal)

theorem sitofp_extui (b : BitVec 1) :
    (FloatOps.sitofp (F := Ideal) .f32 (b.setWidth 32) : Ideal .f32) = ind b := rfl

@[simp] theorem ind_one : ind 1#1 = 1 := by
  show ((((1#1 : BitVec 1).setWidth 32).toInt : ℝ) : EReal) = 1
  norm_num
@[simp] theorem ind_zero : ind 0#1 = 0 := by
  show ((((0#1 : BitVec 1).setWidth 32).toInt : ℝ) : EReal) = 0
  norm_num

/-! ## One row -/

section Row
variable (q : Fin 128 → EReal) (tq : BitVec 32) (K : Fin 8192 → Fin 128 → EReal) (tk : Fin 8192 → BitVec 32)

/-- The similarity of the query to key j. -/
def sim (j : Fin 8192) : EReal := ∑ k : Fin 128, q k * K j k

/-- Key j carries the query's label (the key's label first, as printed). -/
def same (j : Fin 8192) : BitVec 1 := IntOp.cmpi .eq (tk j) tq

def posMask (j : Fin 8192) : BitVec 1 := IntOp.andi (same tq tk j) (Ideal.cmp .olt (sim q K j) cLt)

def negMask (j : Fin 8192) : BitVec 1 := IntOp.xori (same tq tk j) 1#1

/-- The least positive similarity, from +infinity. -/
def minPos : EReal :=
  (Finset.univ : Finset (Fin 8192)).fold min ⊤ fun j => Scalar.select (posMask q tq K tk j) (sim q K j) ⊤

/-- The greatest negative similarity, from -infinity. -/
def maxNeg : EReal :=
  (Finset.univ : Finset (Fin 8192)).fold max ⊥ fun j => Scalar.select (negMask tq tk j) (sim q K j) ⊥

def negM (j : Fin 8192) : BitVec 1 :=
  IntOp.andi (negMask tq tk j) (Ideal.cmp .ogt (sim q K j + cMargin) (minPos q tq K tk))

def posM (j : Fin 8192) : BitVec 1 :=
  IntOp.andi (posMask q tq K tk j) (Ideal.cmp .olt (sim q K j - cMargin) (maxNeg q tq K tk))

def posSum : EReal := ∑ j : Fin 8192, Scalar.select (posM q tq K tk j) (Ideal.exp (cNeg2 * (sim q K j - cHalf))) 0

def negSum : EReal := ∑ j : Fin 8192, Scalar.select (negM q tq K tk j) (Ideal.exp (c40 * (sim q K j - cHalf))) 0

def cntPos : EReal := ∑ j : Fin 8192, ind (posM q tq K tk j)

def cntNeg : EReal := ∑ j : Fin 8192, ind (negM q tq K tk j)

/-- The row's loss. -/
def rowLoss : EReal :=
  Scalar.select (IntOp.andi (Ideal.cmp .ogt (cntPos q tq K tk) 0) (Ideal.cmp .ogt (cntNeg q tq K tk) 0))
    (Ideal.div (Ideal.log1p (posSum q tq K tk)) c2 + Ideal.div (Ideal.log1p (negSum q tq K tk)) c40) 0

end Row

/-- The mean of the rows' losses. -/
def total (A : Fin 8192 → Fin 128 → EReal) (tc : Fin 8192 → BitVec 32) (K : Fin 8192 → Fin 128 → EReal)
    (tk : Fin 8192 → BitVec 32) : EReal :=
  Ideal.div (∑ i : Fin 8192, rowLoss (A i) (tc i) K tk) c8192

/-! ## From the printed array types -/

open Idealize.ShloMosaic.ValueIdx

/-- The rows of an [8192, 128] array. -/
def rows (A : (⟨2, ![8192, 128]⟩ : Shape).Idx → EReal) : Fin 8192 → Fin 128 → EReal := fun i k => A (ix2 i k)

/-- The entries of an [8192] array of words. -/
def labels (t : (⟨1, ![8192]⟩ : Shape).Idx → BitVec 32) : Fin 8192 → BitVec 32 := fun i => t (ix1 i)

/-- The entries of an [8192, 1] column of words (the query labels as the kernel takes them). -/
def labelsCol (t : (⟨2, ![8192, 1]⟩ : Shape).Idx → BitVec 32) : Fin 8192 → BitVec 32 := fun i => t (ix2 i (0 : Fin 1))

/-- The entries of a [1, 8192] row of words (the key labels as the kernel takes them). -/
def labelsRow (t : (⟨2, ![1, 8192]⟩ : Shape).Idx → BitVec 32) : Fin 8192 → BitVec 32 := fun j => t (ix2 (0 : Fin 1) j)

/-! ## The folds as lattice infimum and supremum -/

theorem minPos_eq_inf (q : Fin 128 → EReal) (tq : BitVec 32) (K : Fin 8192 → Fin 128 → EReal) (tk : Fin 8192 → BitVec 32) :
    minPos q tq K tk = (Finset.univ : Finset (Fin 8192)).inf fun j => Scalar.select (posMask q tq K tk j) (sim q K j) ⊤ := rfl

theorem maxNeg_eq_sup (q : Fin 128 → EReal) (tq : BitVec 32) (K : Fin 8192 → Fin 128 → EReal) (tk : Fin 8192 → BitVec 32) :
    maxNeg q tq K tk = (Finset.univ : Finset (Fin 8192)).sup fun j => Scalar.select (negMask tq tk j) (sim q K j) ⊥ := rfl

end Cert.Spec

end
-- ==== Proof.Chunks.lean ====
/-
  The 8192 columns cut into eight chunks of 1024.

  Column l of chunk k is column 1024·k + l. The columns below 1024·(k + 1) are those below 1024·k together with chunk k,
  the two parts being disjoint; none is below 0 and all are below 1024·8. So a quantity that starts at the neutral element
  and at step k takes in the combination of chunk k's 1024 terms is, after eight steps, the combination of all 8192 terms:
  for sums in a commutative monoid, and for folds of any commutative and associative operation from a neutral element.
-/
import Mathlib

namespace Cert.Chunks

open scoped BigOperators

/-- Column `l` of chunk `k`. -/
def col (k : ℕ) (hk : k < 8) (l : Fin 1024) : Fin 8192 := ⟨1024 * k + l.val, by have := l.isLt; omega⟩

@[simp] theorem col_val (k : ℕ) (hk : k < 8) (l : Fin 1024) : (col k hk l).val = 1024 * k + l.val := rfl

theorem col_injective (k : ℕ) (hk : k < 8) : Function.Injective (col k hk) := by
  intro a b h
  have h' := congrArg Fin.val h
  simp only [col_val] at h'
  exact Fin.ext (by omega)

/-- Chunk `k` as an embedding of its 1024 positions into the 8192 columns. -/
def colEmb (k : ℕ) (hk : k < 8) : Fin 1024 ↪ Fin 8192 := ⟨col k hk, col_injective k hk⟩

/-- The columns below 1024·k. -/
def below (k : ℕ) : Finset (Fin 8192) := Finset.univ.filter fun j => j.val < 1024 * k

theorem mem_below {k : ℕ} {j : Fin 8192} : j ∈ below k ↔ j.val < 1024 * k := by
  simp [below]

theorem below_zero : below 0 = ∅ := by
  ext j; simp [mem_below]

theorem below_eight : below 8 = Finset.univ := by
  ext j
  have := j.isLt
  simp only [mem_below, Finset.mem_univ, iff_true]
  omega

theorem below_succ (k : ℕ) (hk : k < 8) : below (k + 1) = below k ∪ Finset.univ.map (colEmb k hk) := by
  ext j
  simp only [mem_below, Finset.mem_union, Finset.mem_map, Finset.mem_univ, true_and]
  constructor
  · intro h
    by_cases h' : j.val < 1024 * k
    · exact Or.inl h'
    · exact Or.inr ⟨⟨j.val - 1024 * k, by omega⟩, Fin.ext (by show 1024 * k + (j.val - 1024 * k) = j.val; omega)⟩
  · rintro (h | ⟨l, rfl⟩)
    · omega
    · have := l.isLt
      show 1024 * k + l.val < 1024 * (k + 1)
      omega

theorem disjoint_below (k : ℕ) (hk : k < 8) : Disjoint (below k) (Finset.univ.map (colEmb k hk)) := by
  rw [Finset.disjoint_left]
  intro j hj hm
  rw [mem_below] at hj
  obtain ⟨l, -, rfl⟩ := Finset.mem_map.mp hm
  have : (colEmb k hk l).val = 1024 * k + l.val := rfl
  omega

/-- Eight steps of adding a chunk's sum, from zero: the sum over all columns. -/
theorem sum_chunks {M : Type*} [AddCommMonoid M] (f : Fin 8192 → M) (A : ℕ → M) (h0 : A 0 = 0)
    (hs : ∀ k (hk : k < 8), A (k + 1) = A k + ∑ l : Fin 1024, f (col k hk l)) : A 8 = ∑ j : Fin 8192, f j := by
  have key : ∀ k, k ≤ 8 → A k = ∑ j ∈ below k, f j := by
    intro k
    induction k with
    | zero => intro _; rw [h0, below_zero, Finset.sum_empty]
    | succ k ih =>
      intro hk
      rw [hs k (by omega), ih (by omega), below_succ k (by omega), Finset.sum_union (disjoint_below k (by omega)),
        Finset.sum_map]
      rfl
  rw [key 8 le_rfl, below_eight]

/-- Eight steps of combining with a chunk's fold, from the neutral element: the fold over all columns. -/
theorem fold_chunks {α : Type*} (op : α → α → α) [hc : Std.Commutative op] [ha : Std.Associative op] (b : α)
    (hb : ∀ a, op a b = a) (f : Fin 8192 → α) (A : ℕ → α) (h0 : A 0 = b)
    (hs : ∀ k (hk : k < 8), A (k + 1) = op (A k) ((Finset.univ : Finset (Fin 1024)).fold op b fun l => f (col k hk l))) :
    A 8 = (Finset.univ : Finset (Fin 8192)).fold op b f := by
  have key : ∀ k, k ≤ 8 → A k = (below k).fold op b f := by
    intro k
    induction k with
    | zero => intro _; rw [h0, below_zero, Finset.fold_empty]
    | succ k ih =>
      intro hk
      have hu := Finset.fold_union_inter (op := op) (f := f) (s₁ := below k) (s₂ := Finset.univ.map (colEmb k (by omega)))
        (b₁ := b) (b₂ := b)
      rw [Finset.disjoint_iff_inter_eq_empty.mp (disjoint_below k (by omega)), Finset.fold_empty, hb, Finset.fold_map] at hu
      rw [hs k (by omega), ih (by omega), below_succ k (by omega), hu]
      rfl
  rw [key 8 le_rfl, below_eight]

end Cert.Chunks
-- ==== Proof.LibColumn.lean ====
/-
  Column vectors read at an index, for any sizes.

  A keepdims reduction leaves an `[a]` vector that is viewed as an `[a, 1]` column, a column is broadcast across `b`
  lanes, and a column is flattened back to `[a]`: each of these reads the operand at the row's one entry. A lane
  maximum of an `[a, b]` array from the word for -∞, at the extended reals, is the fold of `max` over the row's `b`
  entries from that word's value, and a lane sum from the zero word is the row's sum.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LibColumn

open Idealize.ShloMosaic ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column flattened to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Over result index `p`, the source index of a reduction of `[a, b]` along its lanes with lane coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A lane maximum of an f32 `[a, b]` array from the word of -∞, at the extended reals: the fold of `max` over the row. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine Finset.fold_congr fun k _ => ?_
  exact congrArg src (lift_rows h p k)

/-- A lane sum of an f32 `[a, b]` array from the zero word, at the extended reals: the row's sum. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_rows h p k)

end Idealize.ShloMosaic.LibColumn

end
-- ==== Proof.RowOps.lean ====
/-
  Two more readings at an index, for any sizes, over the exact extended reals.

  A lane minimum of an f32 [a, b] array from the word of +∞ is, at row p, the fold of min over the row's b entries from
  that word's value.  A matrix product that contracts the columns of both operands — rows × inner times columns × inner,
  no batch axis — into the zero accumulator is, at entry (p, c), the sum over q of lhs (p, q) · rhs (c, q).
-/
import Idealize.ShloMosaic.Lib.Pipeline.Value
import Idealize.ShloMosaic.Lib.ValueIdx
import Idealize.ShloMosaic.Lib.ValueLayout
import Idealize.ShloMosaic.PureOps.Ideal.Laws
import proofs.«176112_j1769526526575_2_alg».proof.Proof.LibColumn

noncomputable section

open scoped BigOperators

namespace Cert.RowOps

open Idealize.ShloMosaic Idealize.ShloMosaic.ValueIdx

/-- A lane minimum of an f32 `[a, b]` array from the word of +∞, at the extended reals: the fold of `min` over the row. -/
theorem rowMin_f32 {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ src 0x7F800000#32 h hφ hacc (ix1 p)
      = (Finset.univ : Finset (Fin b)).fold min (Ideal.ofBits .f32 0x7F800000#32) (fun k => src (ix2 p k)) := by
  refine (multiReduction_minimumf_eq_fold src 0x7F800000#32 h hφ hacc (ix1 p)).trans ?_
  refine (h.fold_filter_drop_single _ _ src (ix1 p)).trans ?_
  show (Finset.univ : Finset (Fin b)).fold min (Ideal.ofBits .f32 0x7F800000#32) (src ∘ h.lift (ix1 p)) = _
  refine Finset.fold_congr fun k _ => ?_
  exact congrArg src (LibColumn.lift_rows h p k)

variable {n k d : ℕ}

/-- The sum over a one-axis contraction index, re-indexed by the axis's coordinate, for a product whose operand indices
    at output `(p, c)` and contraction coordinate `q` are `(p, q)` and `(c, q)`. -/
theorem sum_contr_eq {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (lhs : FVec Ideal ⟨2, ![n, k]⟩ φ₁) (rhs : FVec Ideal ⟨2, ![d, k]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 c q) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 c q := funext fun a => Fin.ext (by
    match a with
    | ⟨0, _⟩ => exact hr0 _ _
    | ⟨1, _⟩ => exact (hr1 _ _).trans hk)
  rw [el, er]

/-- A matrix-unit product contracting both operands' columns, into the zero accumulator, at entry `(p, c)`. -/
theorem matmulT_zero_apply {φ₁ φ₂ : FTy} (D : DotDims ⟨2, ![n, k]⟩ ⟨2, ![d, k]⟩ ⟨2, ![n, d]⟩)
    (hlc : D.lhsContracting = [1]) (hrc : D.rhsContracting = [1]) (hlb : D.lhsBatch = []) (hrb : D.rhsBatch = [])
    (hln : D.lhsNonContracting = [0]) (hrn : D.rhsNonContracting = [0])
    (prec : Option ContractPrecision) (lhs : FVec Ideal ⟨2, ![n, k]⟩ φ₁) (rhs : FVec Ideal ⟨2, ![d, k]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 c q) := by
  have hr : D.contr.rank = 1 := by rw [D.rank_contr, hlc]; rfl
  have hs : D.contr.size ⟨0, by omega⟩ = k := by
    have := D.size_contr 0 (by rw [hlc]; exact Nat.one_pos)
    rw [this]
    simp only [hlc]
    rfl
  have key : ∀ (i : (⟨2, ![n, d]⟩ : Shape).Idx) (u v : ℕ) (hu : u < 2) (hv : v < 2), u = v → (i ⟨u, hu⟩).val = (i ⟨v, hv⟩).val :=
    fun i u v hu hv h => by subst h; rfl
  rw [Ideal.matmul_constant_zero_apply]
  refine sum_contr_eq D hr hs ?_ ?_ ?_ ?_ lhs rhs p c
  · intro i q
    unfold DotDims.lhsIdx
    rw [dif_neg (by rw [hlb]; exact List.not_mem_nil), dif_pos (by rw [hln]; exact List.mem_cons_self)]
    simp only [Fin.val_cast]
    exact key i _ _ _ _ (by simp [hlb, hln])
  · intro i q; exact D.lhsIdx_val_of_single hlc i q
  · intro i q
    unfold DotDims.rhsIdx
    rw [dif_neg (by rw [hrb]; exact List.not_mem_nil), dif_pos (by rw [hrn]; exact List.mem_cons_self)]
    simp only [Fin.val_cast]
    exact key i _ _ _ _ (by simp [hlb, hln, hrn])
  · intro i q; exact D.rhsIdx_val_of_single hrc i q

end Cert.RowOps

end
-- ==== Proof.PayRowA.lean ====
/-
  The first pass's payload terms read at a row, over the exact extended reals.

  For a block of 256 queries v0, their labels v2 (a column), a chunk of 1024 keys v55 and the chunk's labels v57 (a row):
  the similarity matrix at (r, l) is the inner product of query r and key l; the label comparison at (r, l) compares
  key l's label with query r's; the running row minimum takes in the least similarity of the row's same-label keys
  below the threshold word, from +∞, and the running row maximum the greatest similarity of the row's other-label
  keys, from -∞.  The fills are the words they splat.
-/
import proofs.«176112_j1769526526575_2_alg».proof.Proof.Gen.KernelIdeal.Skeleton
import proofs.«176112_j1769526526575_2_alg».proof.Proof.RowOps

noncomputable section

open scoped BigOperators

namespace Cert.PayRow

open Cert.KernelIdeal Cert.KernelIdeal.Gen Idealize.ShloMosaic Idealize.ShloMosaic.ValueIdx

/-- The similarity of query `r` to key `l` of the chunk. -/
def simC (v0 : FVec Ideal S256x128 .f32) (v55 : FVec Ideal S1024x128 .f32) (r : Fin 256) (l : Fin 1024) : EReal :=
  ∑ c : Fin 128, v0 (ix2 r c) * v55 (ix2 l c)

theorem pay7_apply (v0 : FVec Ideal S256x128 .f32) (v55 : FVec Ideal S1024x128 .f32) (r : Fin 256) (l : Fin 1024) :
    k0_pay7 (F := Ideal) v0 v55 (ix2 r l) = simC v0 v55 r l := by
  unfold k0_pay7
  exact RowOps.matmulT_zero_apply dot_S256x128_S1024x128_S256x1024_1_1_0_0_n_n rfl rfl rfl rfl rfl rfl (some .fp32) v0 v55 r l

theorem pay8_apply (v0 : FVec Ideal S256x128 .f32) (v55 : FVec Ideal S1024x128 .f32) (r : Fin 256) (l : Fin 1024) :
    k0_pay8 (F := Ideal) v0 v55 (ix2 r l) = simC v0 v55 r l := by
  unfold k0_pay8
  rw [shapeCast_self]
  exact pay7_apply v0 v55 r l

theorem pay9_apply (v2 : IVec S256x1 32) (v57 : IVec S1x1024 32) (r : Fin 256) (l : Fin 1024) :
    k0_pay9 (F := Ideal) v2 v57 (ix2 r l) = IntOp.cmpi .eq (v57 (ix2 (0 : Fin 1) l)) (v2 (ix2 r (0 : Fin 1))) := by
  unfold k0_pay9
  show IntOp.cmpi .eq (broadcastTo S256x1024 (shapeCast S1x1024 v57 shapeCasts_S1x1024_S1x1024) broadcasts_S1x1024_S256x1024 (ix2 r l))
    (broadcastTo S256x1024 v2 broadcasts_S256x1_S256x1024 (ix2 r l)) = _
  rw [broadcastTo_1b_ab_apply, LibColumn.broadcastTo_a1_ab_apply, shapeCast_self]

theorem pay17_eq (v1 : IVec S256x1 32) : k0_pay17 (F := Ideal) v1 = v1 := by
  unfold k0_pay17
  exact shapeCast_self _ _

theorem pay18_apply (i : S256x1.Idx) : k0_pay18 (F := Ideal) i = Ideal.ofBits .f32 0x7F800000#32 := by
  unfold k0_pay18
  rw [shapeCast_self]
  rfl

theorem pay19_apply (i : S256x1.Idx) : k0_pay19 (F := Ideal) i = Ideal.ofBits .f32 0xFF800000#32 := by
  unfold k0_pay19
  rw [shapeCast_self]
  rfl

/-- The running row minimum after one more chunk. -/
theorem pay10_row (v0 : FVec Ideal S256x128 .f32) (v2 : IVec S256x1 32) (v55 : FVec Ideal S1024x128 .f32) (v57 : IVec S1x1024 32)
    (v79 : FVec Ideal S256x1 .f32) (r : Fin 256) :
    k0_pay10 (F := Ideal) v0 v2 v55 v57 v79 (ix2 r (0 : Fin 1))
      = min (v79 (ix2 r (0 : Fin 1))) ((Finset.univ : Finset (Fin 1024)).fold min (Ideal.ofBits .f32 0x7F800000#32) fun l =>
          Scalar.select (IntOp.andi (IntOp.cmpi .eq (v57 (ix2 (0 : Fin 1) l)) (v2 (ix2 r (0 : Fin 1))))
              (Ideal.cmp .olt (simC v0 v55 r l) (Ideal.ofBits .f32 0x3F7FFF58#32)))
            (simC v0 v55 r l) (Ideal.ofBits .f32 0x7F800000#32)) := by
  unfold k0_pay10
  rw [shapeCast_self]
  show min (v79 (ix2 r (0 : Fin 1))) (shapeCast S256x1 _ shapeCasts_S256_S256x1 (ix2 r (0 : Fin 1))) = _
  rw [LibColumn.shapeCast_a_a1_apply, RowOps.rowMin_f32]
  refine congrArg (min _) (Finset.fold_congr fun l _ => ?_)
  show Scalar.select (IntOp.andi (k0_pay9 (F := Ideal) v2 v57 (ix2 r l))
      (Ideal.cmp .olt (k0_pay7 (F := Ideal) v0 v55 (ix2 r l)) (Ideal.ofBits .f32 0x3F7FFF58#32)))
    (k0_pay7 (F := Ideal) v0 v55 (ix2 r l)) (Ideal.ofBits .f32 0x7F800000#32) = _
  rw [pay9_apply, pay7_apply]

/-- The running row maximum after one more chunk. -/
theorem pay11_row (v0 : FVec Ideal S256x128 .f32) (v2 : IVec S256x1 32) (v55 : FVec Ideal S1024x128 .f32) (v57 : IVec S1x1024 32)
    (v84 : FVec Ideal S256x1 .f32) (r : Fin 256) :
    k0_pay20 (F := Ideal) (k0_pay11 v0 v2 v55 v57 v84) (ix2 r (0 : Fin 1))
      = max (v84 (ix2 r (0 : Fin 1))) ((Finset.univ : Finset (Fin 1024)).fold max (Ideal.ofBits .f32 0xFF800000#32) fun l =>
          Scalar.select (IntOp.xori (IntOp.cmpi .eq (v57 (ix2 (0 : Fin 1) l)) (v2 (ix2 r (0 : Fin 1)))) 1#1)
            (simC v0 v55 r l) (Ideal.ofBits .f32 0xFF800000#32)) := by
  unfold k0_pay20 k0_pay11
  rw [shapeCast_self]
  show max (v84 (ix2 r (0 : Fin 1))) (shapeCast S256x1 _ shapeCasts_S256_S256x1 (ix2 r (0 : Fin 1))) = _
  rw [LibColumn.shapeCast_a_a1_apply, LibColumn.rowMax_f32]
  refine congrArg (max _) (Finset.fold_congr fun l _ => ?_)
  show Scalar.select (IntOp.xori (k0_pay9 (F := Ideal) v2 v57 (ix2 r l)) 1#1)
    (k0_pay7 (F := Ideal) v0 v55 (ix2 r l)) (Ideal.ofBits .f32 0xFF800000#32) = _
  rw [pay9_apply, pay7_apply]

end Cert.PayRow

end
-- ==== Proof.PayRowB.lean ====
/-
  The second pass's payload terms read at a row, and the final per-row term, over the exact extended reals.

  For the queries' labels v2 (a column), a column of per-row thresholds (the hardest positive v12, the hardest negative
  v13), a chunk's labels v55 (a row) and the chunk's similarity matrix v58: the mined-negative mask at (r, l) says that
  key l has another label and its similarity plus the margin exceeds row r's hardest positive; the mined-positive mask
  that it has the same label, its similarity is below the threshold word, and its similarity minus the margin is below
  row r's hardest negative; the masked exponentials select the exponential under the mask and the zero word elsewhere;
  the running sums add a row's 1024 terms, the running counts a row's 1024 mask bits as reals; the final term selects,
  where both counts are positive, log1p of the positives' sum over 2 plus log1p of the negatives' sum over 40.
-/
import proofs.«176112_j1769526526575_2_alg».proof.Proof.Gen.KernelIdeal.Skeleton
import proofs.«176112_j1769526526575_2_alg».proof.Proof.RowOps

noncomputable section

open scoped BigOperators

namespace Cert.PayRow

open Cert.KernelIdeal Cert.KernelIdeal.Gen Idealize.ShloMosaic Idealize.ShloMosaic.ValueIdx

theorem pay12_apply (v2 : IVec S256x1 32) (v55 : IVec S1x1024 32) (r : Fin 256) (l : Fin 1024) :
    k0_pay12 (F := Ideal) v2 v55 (ix2 r l) = IntOp.cmpi .eq (v55 (ix2 (0 : Fin 1) l)) (v2 (ix2 r (0 : Fin 1))) := by
  unfold k0_pay12
  show IntOp.cmpi .eq (broadcastTo S256x1024 (shapeCast S1x1024 v55 shapeCasts_S1x1024_S1x1024) broadcasts_S1x1024_S256x1024 (ix2 r l))
    (broadcastTo S256x1024 v2 broadcasts_S256x1_S256x1024 (ix2 r l)) = _
  rw [broadcastTo_1b_ab_apply, LibColumn.broadcastTo_a1_ab_apply, shapeCast_self]

/-- The mined-negative mask at `(r, l)`. -/
theorem pay13_apply (v2 : IVec S256x1 32) (v12 : FVec Ideal S256x1 .f32) (v55 : IVec S1x1024 32) (v58 : FVec Ideal S256x1024 .f32)
    (r : Fin 256) (l : Fin 1024) :
    k0_pay13 (F := Ideal) v2 v12 v55 v58 (ix2 r l)
      = IntOp.andi (IntOp.xori (IntOp.cmpi .eq (v55 (ix2 (0 : Fin 1) l)) (v2 (ix2 r (0 : Fin 1)))) 1#1)
          (Ideal.cmp .ogt (v58 (ix2 r l) + Ideal.ofBits .f32 0x3DCCCCCD#32) (v12 (ix2 r (0 : Fin 1)))) := by
  unfold k0_pay13
  show IntOp.andi (IntOp.xori (k0_pay12 (F := Ideal) v2 v55 (ix2 r l)) 1#1)
    (Ideal.cmp .ogt (v58 (ix2 r l) + Ideal.ofBits .f32 0x3DCCCCCD#32)
      (broadcastTo S256x1024 v12 broadcasts_S256x1_S256x1024 (ix2 r l))) = _
  rw [pay12_apply, LibColumn.broadcastTo_a1_ab_apply]

/-- The mined-positive mask at `(r, l)`. -/
theorem pay14_apply (v2 : IVec S256x1 32) (v13 : FVec Ideal S256x1 .f32) (v55 : IVec S1x1024 32) (v58 : FVec Ideal S256x1024 .f32)
    (r : Fin 256) (l : Fin 1024) :
    k0_pay14 (F := Ideal) v2 v13 v55 v58 (ix2 r l)
      = IntOp.andi (IntOp.andi (IntOp.cmpi .eq (v55 (ix2 (0 : Fin 1) l)) (v2 (ix2 r (0 : Fin 1))))
            (Ideal.cmp .olt (v58 (ix2 r l)) (Ideal.ofBits .f32 0x3F7FFF58#32)))
          (Ideal.cmp .olt (v58 (ix2 r l) - Ideal.ofBits .f32 0x3DCCCCCD#32) (v13 (ix2 r (0 : Fin 1)))) := by
  unfold k0_pay14
  show IntOp.andi (IntOp.andi (k0_pay12 (F := Ideal) v2 v55 (ix2 r l)) (Ideal.cmp .olt (v58 (ix2 r l)) (Ideal.ofBits .f32 0x3F7FFF58#32)))
    (Ideal.cmp .olt (v58 (ix2 r l) - Ideal.ofBits .f32 0x3DCCCCCD#32)
      (broadcastTo S256x1024 v13 broadcasts_S256x1_S256x1024 (ix2 r l))) = _
  rw [pay12_apply, LibColumn.broadcastTo_a1_ab_apply]

/-- The mined positives' exponentials at `(r, l)`. -/
theorem pay15_apply (v2 : IVec S256x1 32) (v13 : FVec Ideal S256x1 .f32) (v55 : IVec S1x1024 32) (v58 : FVec Ideal S256x1024 .f32)
    (r : Fin 256) (l : Fin 1024) :
    k0_pay15 (F := Ideal) v2 v13 v55 v58 (ix2 r l)
      = Scalar.select (k0_pay14 (F := Ideal) v2 v13 v55 v58 (ix2 r l))
          (Ideal.exp (Ideal.ofBits .f32 0xC0000000#32 * (v58 (ix2 r l) - Ideal.ofBits .f32 0x3F000000#32)))
          (Ideal.ofBits .f32 0x00000000#32) := by
  unfold k0_pay15
  rfl

/-- The mined negatives' exponentials at `(r, l)`. -/
theorem pay16_apply (v2 : IVec S256x1 32) (v12 : FVec Ideal S256x1 .f32) (v55 : IVec S1x1024 32) (v58 : FVec Ideal S256x1024 .f32)
    (r : Fin 256) (l : Fin 1024) :
    k0_pay16 (F := Ideal) v2 v12 v55 v58 (ix2 r l)
      = Scalar.select (k0_pay13 (F := Ideal) v2 v12 v55 v58 (ix2 r l))
          (Ideal.exp (Ideal.ofBits .f32 0x42200000#32 * (v58 (ix2 r l) - Ideal.ofBits .f32 0x3F000000#32)))
          (Ideal.ofBits .f32 0x00000000#32) := by
  unfold k0_pay16
  rfl

/-- A running row sum after one more chunk. -/
theorem pay2_row (v82 : FVec Ideal S256x1024 .f32) (v90 : FVec Ideal S256x1 .f32) (r : Fin 256) :
    k0_pay2 (F := Ideal) v82 v90 (ix2 r (0 : Fin 1)) = v90 (ix2 r (0 : Fin 1)) + ∑ l : Fin 1024, v82 (ix2 r l) := by
  unfold k0_pay2
  rw [shapeCast_self]
  show v90 (ix2 r (0 : Fin 1)) + shapeCast S256x1 _ shapeCasts_S256_S256x1 (ix2 r (0 : Fin 1)) = _
  rw [LibColumn.shapeCast_a_a1_apply, LibColumn.rowSum_f32]

theorem pay3_row (v89 : FVec Ideal S256x1024 .f32) (v97 : FVec Ideal S256x1 .f32) (r : Fin 256) :
    k0_pay3 (F := Ideal) v89 v97 (ix2 r (0 : Fin 1)) = v97 (ix2 r (0 : Fin 1)) + ∑ l : Fin 1024, v89 (ix2 r l) := by
  unfold k0_pay3
  rw [shapeCast_self]
  show v97 (ix2 r (0 : Fin 1)) + shapeCast S256x1 _ shapeCasts_S256_S256x1 (ix2 r (0 : Fin 1)) = _
  rw [LibColumn.shapeCast_a_a1_apply, LibColumn.rowSum_f32]

/-- A running row count after one more chunk: the mask bits as reals. -/
theorem pay4_row (v75 : IVec S256x1024 1) (v104 : FVec Ideal S256x1 .f32) (r : Fin 256) :
    k0_pay4 (F := Ideal) v75 v104 (ix2 r (0 : Fin 1))
      = v104 (ix2 r (0 : Fin 1)) + ∑ l : Fin 1024, ((((v75 (ix2 r l)).setWidth 32).toInt : ℝ) : EReal) := by
  unfold k0_pay4
  rw [shapeCast_self]
  show v104 (ix2 r (0 : Fin 1)) + shapeCast S256x1 _ shapeCasts_S256_S256x1 (ix2 r (0 : Fin 1)) = _
  rw [LibColumn.shapeCast_a_a1_apply, LibColumn.rowSum_f32]
  rfl

theorem pay5_row (v70 : IVec S256x1024 1) (v113 : FVec Ideal S256x1 .f32) (r : Fin 256) :
    k0_pay5 (F := Ideal) v70 v113 (ix2 r (0 : Fin 1))
      = v113 (ix2 r (0 : Fin 1)) + ∑ l : Fin 1024, ((((v70 (ix2 r l)).setWidth 32).toInt : ℝ) : EReal) := by
  unfold k0_pay5
  rw [shapeCast_self]
  show v113 (ix2 r (0 : Fin 1)) + shapeCast S256x1 _ shapeCasts_S256_S256x1 (ix2 r (0 : Fin 1)) = _
  rw [LibColumn.shapeCast_a_a1_apply, LibColumn.rowSum_f32]
  rfl

theorem pay1_apply (i : S256x1.Idx) : k0_pay1 (F := Ideal) i = Ideal.ofBits .f32 0x00000000#32 := by
  unfold k0_pay1
  rw [shapeCast_self]
  rfl

theorem pay21_apply (i : S256x1.Idx) : k0_pay21 (F := Ideal) i = Ideal.ofBits .f32 0x00000000#32 := by
  unfold k0_pay21
  rw [shapeCast_self]
  rfl

theorem pay22_apply (i : S256x1.Idx) : k0_pay22 (F := Ideal) i = Ideal.ofBits .f32 0x00000000#32 := by
  unfold k0_pay22
  rw [shapeCast_self]
  rfl

theorem pay23_apply (i : S256x1.Idx) : k0_pay23 (F := Ideal) i = Ideal.ofBits .f32 0x00000000#32 := by
  unfold k0_pay23
  rw [shapeCast_self]
  rfl

/-- The final per-row term. -/
theorem pay6_apply (v31 v32 v33 v36 : FVec Ideal S256x1 .f32) (i : S256x1.Idx) :
    k0_pay6 (F := Ideal) v31 v32 v33 v36 i
      = Scalar.select (IntOp.andi (Ideal.cmp .ogt (v33 i) (Ideal.ofBits .f32 0x00000000#32))
            (Ideal.cmp .ogt (v36 i) (Ideal.ofBits .f32 0x00000000#32)))
          (Ideal.div (Ideal.log1p (v31 i)) (Ideal.ofBits .f32 0x40000000#32)
            + Ideal.div (Ideal.log1p (v32 i)) (Ideal.ofBits .f32 0x42200000#32))
          (Ideal.ofBits .f32 0x00000000#32) := by
  unfold k0_pay6
  rfl

end Cert.PayRow

end
-- ==== Proof.KernelIdealRow.lean ====
/-
  The kernel body's result, read at the exact extended reals, is the specification's row loss.

  Chunk k of the keys (of the key labels) read at position l is the keys' (the labels') entry at column 1024·k + l, so
  the chunk's similarity of query r to its key l is the specification's similarity to that column.  By the eight steps
  over the chunks, the running row minimum and maximum at row r are the specification's hardest positive and hardest
  negative, the four running sums of the second pass are its two sums of mined exponentials and its two mined counts,
  and the final term at row r is its row loss.
-/
import proofs.«176112_j1769526526575_2_alg».proof.Proof.KernelIdealBody
import proofs.«176112_j1769526526575_2_alg».proof.Proof.Spec
import proofs.«176112_j1769526526575_2_alg».proof.Proof.Chunks
import proofs.«176112_j1769526526575_2_alg».proof.Proof.PayRowA
import proofs.«176112_j1769526526575_2_alg».proof.Proof.PayRowB

noncomputable section

open scoped BigOperators

namespace Cert.KernelIdeal.Row

open Cert.KernelIdeal Cert.KernelIdeal.Gen Cert.KernelIdeal.Body Idealize.ShloMosaic Idealize.ShloMosaic.ValueIdx
open Cert.Chunks Cert.PayRow

variable (x0 : Vec Ideal S256x128 .f32) (x1 : Vec Ideal S256x1 .i32) (x2 : Vec Ideal S8192x128 .f32) (x3 : Vec Ideal S1x8192 .i32)
variable (r : Fin 256)

local notation "Q" => (fun c : Fin 128 => x0 (ix2 r c))
local notation "TQ" => x1 (ix2 r (0 : Fin 1))
local notation "KK" => Cert.Spec.rows x2
local notation "TK" => Cert.Spec.labelsRow x3

/-! ## The chunks read at a position -/

theorem keys_apply (k : ℕ) (hk : k < 8) (l : Fin 1024) (c : Fin 128) :
    keys (F := Ideal) x2 k hk (ix2 l c) = x2 (ix2 (col k hk l) c) := by
  show x2 _ = x2 _
  refine congrArg x2 (funext fun a => Fin.ext ?_)
  match a with
  | ⟨0, _⟩ => show 1024 * k + 1 * l.val = 1024 * k + l.val; omega
  | ⟨1, _⟩ => show 0 + 1 * c.val = c.val; omega

theorem labs_apply (k : ℕ) (hk : k < 8) (l : Fin 1024) :
    labs (F := Ideal) x3 k hk (ix2 (0 : Fin 1) l) = x3 (ix2 (0 : Fin 1) (col k hk l)) := by
  show x3 _ = x3 _
  refine congrArg x3 (funext fun a => Fin.ext ?_)
  match a with
  | ⟨0, _⟩ => show 0 + 1 * 0 = 0; omega
  | ⟨1, _⟩ => show 1024 * k + 1 * l.val = 1024 * k + l.val; omega

theorem simC_keys (k : ℕ) (hk : k < 8) (l : Fin 1024) :
    simC x0 (keys (F := Ideal) x2 k hk) r l = Cert.Spec.sim Q KK (col k hk l) := by
  unfold simC Cert.Spec.sim
  exact Finset.sum_congr rfl fun c _ => by rw [keys_apply]; rfl

theorem sims_apply (k : ℕ) (hk : k < 8) (l : Fin 1024) :
    sims (F := Ideal) x0 x2 k hk (ix2 r l) = Cert.Spec.sim Q KK (col k hk l) := by
  unfold sims
  rw [pay8_apply, simC_keys]

/-! ## The first pass: the hardest positive and the hardest negative -/

theorem minAcc_eight : minAcc (F := Ideal) x0 x1 x2 x3 8 (ix2 r (0 : Fin 1)) = Cert.Spec.minPos Q TQ KK TK := by
  refine fold_chunks min (⊤ : EReal) (fun a => min_top_right a)
    (fun j => Scalar.select (Cert.Spec.posMask Q TQ KK TK j) (Cert.Spec.sim Q KK j) ⊤)
    (fun k => minAcc (F := Ideal) x0 x1 x2 x3 k (ix2 r (0 : Fin 1))) ?_ ?_
  · show k0_pay18 (F := Ideal) (ix2 r (0 : Fin 1)) = ⊤
    rw [pay18_apply, Cert.Spec.ofBits_inf]
  · intro k hk
    show minAcc (F := Ideal) x0 x1 x2 x3 (k + 1) (ix2 r (0 : Fin 1)) = min (minAcc (F := Ideal) x0 x1 x2 x3 k (ix2 r (0 : Fin 1))) _
    rw [minAcc, dif_pos hk, pay17_eq, pay10_row]
    refine congrArg (min _) ?_
    rw [Cert.Spec.ofBits_inf]
    refine Finset.fold_congr fun l _ => ?_
    rw [simC_keys, labs_apply]
    rfl

theorem maxAcc_eight : maxAcc (F := Ideal) x0 x1 x2 x3 8 (ix2 r (0 : Fin 1)) = Cert.Spec.maxNeg Q TQ KK TK := by
  refine fold_chunks max (⊥ : EReal) (fun a => max_bot_right a)
    (fun j => Scalar.select (Cert.Spec.negMask TQ TK j) (Cert.Spec.sim Q KK j) ⊥)
    (fun k => maxAcc (F := Ideal) x0 x1 x2 x3 k (ix2 r (0 : Fin 1))) ?_ ?_
  · show k0_pay19 (F := Ideal) (ix2 r (0 : Fin 1)) = ⊥
    rw [pay19_apply, Cert.Spec.ofBits_ninf]
  · intro k hk
    show maxAcc (F := Ideal) x0 x1 x2 x3 (k + 1) (ix2 r (0 : Fin 1)) = max (maxAcc (F := Ideal) x0 x1 x2 x3 k (ix2 r (0 : Fin 1))) _
    rw [maxAcc, dif_pos hk, pay17_eq, pay11_row]
    refine congrArg (max _) ?_
    rw [Cert.Spec.ofBits_ninf]
    refine Finset.fold_congr fun l _ => ?_
    rw [simC_keys, labs_apply]
    rfl

/-! ## The second pass: the mined masks, sums and counts -/

theorem posM_chunk (k : ℕ) (hk : k < 8) (l : Fin 1024) :
    k0_pay14 (F := Ideal) (k0_pay17 x1) (maxAcc x0 x1 x2 x3 8) (labs x3 k hk) (sims x0 x2 k hk) (ix2 r l)
      = Cert.Spec.posM Q TQ KK TK (col k hk l) := by
  rw [pay14_apply, pay17_eq, labs_apply, sims_apply, maxAcc_eight]
  rfl

theorem negM_chunk (k : ℕ) (hk : k < 8) (l : Fin 1024) :
    k0_pay13 (F := Ideal) (k0_pay17 x1) (minAcc x0 x1 x2 x3 8) (labs x3 k hk) (sims x0 x2 k hk) (ix2 r l)
      = Cert.Spec.negM Q TQ KK TK (col k hk l) := by
  rw [pay13_apply, pay17_eq, labs_apply, sims_apply, minAcc_eight]
  rfl

theorem posSum_eight : posSum (F := Ideal) x0 x1 x2 x3 8 (ix2 r (0 : Fin 1)) = Cert.Spec.posSum Q TQ KK TK := by
  refine sum_chunks
    (fun j => Scalar.select (Cert.Spec.posM Q TQ KK TK j)
      (Ideal.exp (Cert.Spec.cNeg2 * (Cert.Spec.sim Q KK j - Cert.Spec.cHalf))) (0 : EReal))
    (fun k => posSum (F := Ideal) x0 x1 x2 x3 k (ix2 r (0 : Fin 1))) ?_ ?_
  · show k0_pay21 (F := Ideal) (ix2 r (0 : Fin 1)) = 0
    rw [pay21_apply, Ideal.ofBits_zero_f32]
  · intro k hk
    show posSum (F := Ideal) x0 x1 x2 x3 (k + 1) (ix2 r (0 : Fin 1)) = posSum (F := Ideal) x0 x1 x2 x3 k (ix2 r (0 : Fin 1)) + _
    rw [posSum, dif_pos hk, pay2_row]
    refine congrArg (_ + ·) (Finset.sum_congr rfl fun l _ => ?_)
    rw [pay15_apply, posM_chunk, sims_apply, Ideal.ofBits_zero_f32]
    rfl

theorem negSum_eight : negSum (F := Ideal) x0 x1 x2 x3 8 (ix2 r (0 : Fin 1)) = Cert.Spec.negSum Q TQ KK TK := by
  refine sum_chunks
    (fun j => Scalar.select (Cert.Spec.negM Q TQ KK TK j)
      (Ideal.exp (Cert.Spec.c40 * (Cert.Spec.sim Q KK j - Cert.Spec.cHalf))) (0 : EReal))
    (fun k => negSum (F := Ideal) x0 x1 x2 x3 k (ix2 r (0 : Fin 1))) ?_ ?_
  · show k0_pay22 (F := Ideal) (ix2 r (0 : Fin 1)) = 0
    rw [pay22_apply, Ideal.ofBits_zero_f32]
  · intro k hk
    show negSum (F := Ideal) x0 x1 x2 x3 (k + 1) (ix2 r (0 : Fin 1)) = negSum (F := Ideal) x0 x1 x2 x3 k (ix2 r (0 : Fin 1)) + _
    rw [negSum, dif_pos hk, pay3_row]
    refine congrArg (_ + ·) (Finset.sum_congr rfl fun l _ => ?_)
    rw [pay16_apply, negM_chunk, sims_apply, Ideal.ofBits_zero_f32]
    rfl

theorem posCnt_eight : posCnt (F := Ideal) x0 x1 x2 x3 8 (ix2 r (0 : Fin 1)) = Cert.Spec.cntPos Q TQ KK TK := by
  refine sum_chunks (fun j => Cert.Spec.ind (Cert.Spec.posM Q TQ KK TK j))
    (fun k => posCnt (F := Ideal) x0 x1 x2 x3 k (ix2 r (0 : Fin 1))) ?_ ?_
  · show k0_pay23 (F := Ideal) (ix2 r (0 : Fin 1)) = 0
    rw [pay23_apply, Ideal.ofBits_zero_f32]
  · intro k hk
    show posCnt (F := Ideal) x0 x1 x2 x3 (k + 1) (ix2 r (0 : Fin 1)) = posCnt (F := Ideal) x0 x1 x2 x3 k (ix2 r (0 : Fin 1)) + _
    rw [posCnt, dif_pos hk, pay4_row]
    refine congrArg (_ + ·) (Finset.sum_congr rfl fun l _ => ?_)
    rw [posM_chunk]
    rfl

theorem negCnt_eight : negCnt (F := Ideal) x0 x1 x2 x3 8 (ix2 r (0 : Fin 1)) = Cert.Spec.cntNeg Q TQ KK TK := by
  refine sum_chunks (fun j => Cert.Spec.ind (Cert.Spec.negM Q TQ KK TK j))
    (fun k => negCnt (F := Ideal) x0 x1 x2 x3 k (ix2 r (0 : Fin 1))) ?_ ?_
  · show k0_pay1 (F := Ideal) (ix2 r (0 : Fin 1)) = 0
    rw [pay1_apply, Ideal.ofBits_zero_f32]
  · intro k hk
    show negCnt (F := Ideal) x0 x1 x2 x3 (k + 1) (ix2 r (0 : Fin 1)) = negCnt (F := Ideal) x0 x1 x2 x3 k (ix2 r (0 : Fin 1)) + _
    rw [negCnt, dif_pos hk, pay5_row]
    refine congrArg (_ + ·) (Finset.sum_congr rfl fun l _ => ?_)
    rw [negM_chunk]
    rfl

/-! ## The row's loss -/

/-- The body's result at row `r` is the specification's loss of that row. -/
theorem body_row :
    body (F := Ideal) x0 x1 x2 x3 (ix2 r (0 : Fin 1)) = Cert.Spec.rowLoss Q TQ KK TK := by
  unfold body
  rw [pay6_apply, posSum_eight, negSum_eight, posCnt_eight, negCnt_eight, Ideal.ofBits_zero_f32]
  rfl

/-- The same at any index of the 256 × 1 result: its one row coordinate names the query. -/
theorem body_apply (i : S256x1.Idx) :
    body (F := Ideal) x0 x1 x2 x3 i = Cert.Spec.rowLoss (fun c : Fin 128 => x0 (ix2 (i 0) c)) (x1 i) KK TK := by
  obtain ⟨p, u, rfl⟩ : ∃ (p : Fin 256) (u : Fin 1), i = ix2 p u := ⟨i 0, i 1, eq_ix2 i⟩
  obtain rfl : u = 0 := Subsingleton.elim _ _
  exact body_row x0 x1 x2 x3 p

end Cert.KernelIdeal.Row

end
-- ==== Proof.OutBlock.lean ====
/-
  What the output's staging buffer holds after the body at a grid point: the body's one store covers the whole
  256-row block, so the block reads as the body's result, a pure function of the four input blocks at that point.
-/
import proofs.«176112_j1769526526575_2_alg».proof.Proof.KernelIdealFrame
import proofs.«176112_j1769526526575_2_alg».proof.Proof.LibUnitReads

noncomputable section

namespace Cert.KernelIdeal.Blocks

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ)

theorem hz2 : (![0, 0] : Fin 2 → Nat) = fun _ => 0 := funext fun a => by fin_cases a <;> rfl

/-- After the body at point `t`, the output block is the body's result on the four input blocks at `t`. -/
theorem outsAt0_eq (c : Dev nD) (t : Fin cfg0.N) :
    outsAt0 m c t = Body.body (iblk m c 0 t) (iblk m c 1 t) (iblk m c 2 t) (iblk m c 3 t) := by
  unfold outsAt0 out0_A_4
  rw [Cert.KernelIdeal.Out.run_pieces]
  exact LibUnitReads.read_writes_cons_whole _ _ hz2 _ _ _

end Cert.KernelIdeal.Blocks

end
-- ==== Proof.InBlocks.lean ====
/-
  The four input blocks of a grid point, read at an index, over the extended reals: point t's block of the queries is
  rows 256·t … 256·t + 255 of the first argument; its block of the query labels is the same rows of the second argument
  viewed as a column; the keys' block is the whole third argument; the key labels' block is the fourth argument viewed
  as a row.
-/
import proofs.«176112_j1769526526575_2_alg».proof.Proof.KernelIdealFrame
import proofs.«176112_j1769526526575_2_alg».proof.Proof.LibColumn
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The printed index maps, decided over the grid: the windows of the queries, of their labels and of the output are at
    block (t, 0) at point t; the keys' and the key labels' windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The query labels as the region finds them: the second argument viewed as a column. -/
theorem V_labelsCol (c : Dev nD) :
    (V m c main_v0 : S8192x1.Idx → BitVec 32)
      = shapeCast S8192x1 (m ((c : Thread nD τ).loc main_arg1) : S8192.Idx → BitVec 32) shapeCasts_S8192_S8192x1 := by
  show StableHlo.after hostOps0 (fun b => m (c, b)) (Proc.devRef .tc main_v0) = _
  after_results
  rfl

/-- The key labels as the region finds them: the fourth argument viewed as a row. -/
theorem V_labelsRow (c : Dev nD) :
    (V m c main_v1 : S1x8192.Idx → BitVec 32)
      = shapeCast S1x8192 (m ((c : Thread nD τ).loc main_arg3) : S8192.Idx → BitVec 32) shapeCasts_S8192_S1x8192 := by
  show StableHlo.after hostOps0 (fun b => m (c, b)) (Proc.devRef .tc main_v1) = _
  after_results
  rfl

/-- A vector of n words viewed as a [1, n] row reads, at (u, p), the vector at p. -/
theorem shapeCast_a_1a_apply {α : Type} {a : ℕ} (x : (⟨1, ![a]⟩ : Shape).Idx → α)
    (h : (⟨1, ![a]⟩ : Shape).ShapeCasts ⟨2, ![1, a]⟩) (u : Fin 1) (p : Fin a) :
    shapeCast ⟨2, ![1, a]⟩ x h (ix2 u p) = x (ix1 p) :=
  shapeCast_apply x h _ _ (by
    have hu : u.val = 0 := by omega
    rw [Shape.rowMajor_val_two, Shape.rowMajor_val_one]
    show p.val = u.val * a + p.val
    rw [hu, Nat.zero_mul, Nat.zero_add])

/-- Point t's block of the queries is rows 256·t … of the first argument. -/
theorem queries_apply (c : Dev nD) (t : Fin cfg0.N) (x : S256x128.Idx) (k : S8192x128.Idx)
    (hk0 : (k 0).val = 256 * t.val + (x 0).val) (hk1 : (k 1).val = (x 1).val) :
    (iblk m c 0 t : S256x128.Idx → EReal) x = (m ((c : Thread nD τ).loc main_arg0) : S8192x128.Idx → EReal) k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 128 + 1 * (x 1).val = (k 1).val; rw [e1, hk1]; omega

/-- Point t's block of the query labels is rows 256·t … of the second argument. -/
theorem queryLabels_apply (c : Dev nD) (t : Fin cfg0.N) (x : S256x1.Idx) (k : Fin 8192)
    (hk : k.val = 256 * t.val + (x 0).val) :
    (iblk m c 1 t : S256x1.Idx → BitVec 32) x = (m ((c : Thread nD τ).loc main_arg1) : S8192.Idx → BitVec 32) (ix1 k) := by
  obtain ⟨-, -, e0, e1, -⟩ := idx_facts t
  unfold iblk
  rw [View.read_apply]
  show V m c main_v0 _ = _
  rw [V_labelsCol]
  refine Eq.trans (congrArg _ ?_) (LibColumn.shapeCast_a_a1_apply _ _ k (0 : Fin 1))
  funext a
  apply Fin.ext
  match a with
  | ⟨0, _⟩ => show win0_1.index t (0 : Fin 2) * 256 + 1 * (x 0).val = k.val; rw [e0, hk]; omega
  | ⟨1, _⟩ => show win0_1.index t (1 : Fin 2) * 1 + 1 * (x 1).val = 0; rw [e1]; have h1 : (x 1).val < 1 := (x 1).isLt; omega

/-- Every point's block of the keys is the whole third argument. -/
theorem keys_eq (c : Dev nD) (t : Fin cfg0.N) :
    (iblk m c 2 t : S8192x128.Idx → EReal) = (m ((c : Thread nD τ).loc main_arg2) : S8192x128.Idx → EReal) := by
  obtain ⟨-, -, -, -, e0, e1, -⟩ := idx_facts t
  funext x
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 8192 + 1 * (x 0).val = (x 0).val; rw [e0]; omega
  | ⟨1, _⟩ => show win0_2.index t (1 : Fin 2) * 128 + 1 * (x 1).val = (x 1).val; rw [e1]; omega

/-- Every point's block of the key labels is the fourth argument as a row. -/
theorem keyLabels_apply (c : Dev nD) (t : Fin cfg0.N) (j : Fin 8192) :
    (iblk m c 3 t : S1x8192.Idx → BitVec 32) (ix2 (0 : Fin 1) j) = (m ((c : Thread nD τ).loc main_arg3) : S8192.Idx → BitVec 32) (ix1 j) := by
  obtain ⟨-, -, -, -, -, -, e0, e1, -⟩ := idx_facts t
  unfold iblk
  rw [View.read_apply]
  show V m c main_v1 _ = _
  rw [V_labelsRow]
  refine Eq.trans (congrArg _ ?_) (shapeCast_a_1a_apply _ _ (0 : Fin 1) j)
  funext a
  apply Fin.ext
  match a with
  | ⟨0, _⟩ => show win0_3.index t (0 : Fin 2) * 1 + 1 * 0 = 0; rw [e0]
  | ⟨1, _⟩ => show win0_3.index t (1 : Fin 2) * 8192 + 1 * j.val = j.val; rw [e1]; omega

end Cert.KernelIdeal.Blocks

end
-- ==== Proof.OutArray.lean ====
/-
  The output array after the grid: entry r of the [8192, 1] output is the row loss of query row r of the first argument
  with its label, against all the keys and key labels. Point t writes back rows 256·t … 256·t + 255, each point's block
  is a block of this one function, and the 32 blocks cover the array.

  The body's result at a row is taken as a hypothesis (BodyRow): the block's row r is the row loss of the query block's
  row r.
-/
import proofs.«176112_j1769526526575_2_alg».proof.Proof.OutBlock
import proofs.«176112_j1769526526575_2_alg».proof.Proof.InBlocks
import proofs.«176112_j1769526526575_2_alg».proof.Proof.Spec

noncomputable section

namespace Cert.KernelIdeal.Blocks

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The body's result at row r of its block, over the extended reals, is the row loss of the query block's row r with
    its label against the key block and the key labels. -/
def BodyRow : Prop :=
  ∀ (x0 : Vec Ideal S256x128 .f32) (x1 : Vec Ideal S256x1 .i32) (x2 : Vec Ideal S8192x128 .f32) (x3 : Vec Ideal S1x8192 .i32)
    (r : Fin 256),
    Body.body (F := Ideal) x0 x1 x2 x3 (ix2 r (0 : Fin 1))
      = Cert.Spec.rowLoss (fun k => x0 (ix2 r k)) (x1 (ix2 r (0 : Fin 1))) (Cert.Spec.rows x2) (Cert.Spec.labelsRow x3)

/-- The output array as one function of the four arguments: entry (i, 0) is the row loss of query row i. -/
def rowLosses (A0 : S8192x128.Idx → EReal) (A1 : S8192.Idx → BitVec 32) (A2 : S8192x128.Idx → EReal)
    (A3 : S8192.Idx → BitVec 32) : S8192x1.Idx → EReal :=
  fun y => Cert.Spec.rowLoss (Cert.Spec.rows A0 (y 0)) (Cert.Spec.labels A1 (y 0)) (Cert.Spec.rows A2) (Cert.Spec.labels A3)

theorem rowLosses_at (A0 : S8192x128.Idx → EReal) (A1 : S8192.Idx → BitVec 32) (A2 : S8192x128.Idx → EReal)
    (A3 : S8192.Idx → BitVec 32) (y : S8192x1.Idx) (n : Fin 8192) (h : (y 0).val = n.val) :
    rowLosses A0 A1 A2 A3 y
      = Cert.Spec.rowLoss (Cert.Spec.rows A0 n) (Cert.Spec.labels A1 n) (Cert.Spec.rows A2) (Cert.Spec.labels A3) := by
  have e : y 0 = n := Fin.ext h
  unfold rowLosses
  rw [e]

/-- Row r of point t's block is row 256·t + r of the array. -/
def rowOf (t : Fin cfg0.N) (r : Fin 256) : Fin 8192 :=
  ⟨256 * t.val + r.val, by have hN : grid0.N = 32 := N_0; have ht : t.val < grid0.N := t.isLt; have := r.isLt; omega⟩

/-- The arguments of the output array's function, for core c. -/
abbrev result (c : Dev nD) : S8192x1.Idx → EReal :=
  rowLosses (m ((c : Thread nD τ).loc main_arg0)) (m ((c : Thread nD τ).loc main_arg1))
    (m ((c : Thread nD τ).loc main_arg2)) (m ((c : Thread nD τ).loc main_arg3))

/-- What point t writes back is block t of the row losses. -/
theorem flushed_eq (hbody : BodyRow) (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, outsAt0_eq]
  obtain ⟨-, -, -, -, -, -, -, -, e0, e1⟩ := idx_facts t
  funext y
  obtain ⟨r, u, rfl⟩ : ∃ (r : Fin 256) (u : Fin 1), y = ix2 r u := ⟨y 0, y 1, eq_ix2 y⟩
  obtain rfl : u = 0 := Subsingleton.elim _ _
  rw [View.read_apply]
  refine (hbody (iblk m c 0 t) (iblk m c 1 t) (iblk m c 2 t) (iblk m c 3 t) r).trans ?_
  refine Eq.trans ?_ (rowLosses_at _ _ _ _ _ (rowOf t r) ?_).symm
  · have h0 : (fun k => (iblk m c 0 t : S256x128.Idx → EReal) (ix2 r k))
        = Cert.Spec.rows (m ((c : Thread nD τ).loc main_arg0)) (rowOf t r) :=
      funext fun k => queries_apply m c t (ix2 r k) (ix2 (rowOf t r) k) rfl rfl
    have h1 : (iblk m c 1 t : S256x1.Idx → BitVec 32) (ix2 r (0 : Fin 1))
        = Cert.Spec.labels (m ((c : Thread nD τ).loc main_arg1)) (rowOf t r) :=
      queryLabels_apply m c t (ix2 r (0 : Fin 1)) (rowOf t r) rfl
    have h2 : Cert.Spec.rows (iblk m c 2 t : S8192x128.Idx → EReal) = Cert.Spec.rows (m ((c : Thread nD τ).loc main_arg2)) :=
      congrArg Cert.Spec.rows (keys_eq m c t)
    have h3 : Cert.Spec.labelsRow (iblk m c 3 t : S1x8192.Idx → BitVec 32) = Cert.Spec.labels (m ((c : Thread nD τ).loc main_arg3)) :=
      funext fun j => keyLabels_apply m c t j
    rw [h0, h1, h2, h3]
  · show win0_4.index t (0 : Fin 2) * 256 + 1 * r.val = 256 * t.val + r.val
    rw [e0]; omega

/-- An index of the array is in point t's block iff each coordinate is in the block's range on its axis. -/
theorem mem_blk (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v2).slice (win0_4.rect t)).set ↔ _
  rw [View.set_slice_whole, Rect.mem_set_unit]
  exact Iff.rfl

/-- Row i is in the block of point i / 256. -/
theorem cover (i : S8192x1.Idx) : ∃ t : Fin cfg0.N, (cfg0.win 4).flush t = true ∧ i ∈ ((cfg0.win 4).blk t).view.set := by
  have hN : grid0.N = 32 := N_0
  have hi0 : (i 0).val < 8192 := (i 0).isLt
  have hi1 : (i 1).val < 1 := (i 1).isLt
  have ht : (i 0).val / 256 < grid0.N := by omega
  obtain ⟨-, -, -, -, -, -, -, -, e0, e1⟩ := idx_facts ⟨(i 0).val / 256, ht⟩
  refine ⟨⟨(i 0).val / 256, ht⟩, flush0_4 _, ?_⟩
  rw [mem_blk]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [e0]; dsimp only; omega
  | ⟨1, _⟩ =>
    show win0_4.index ⟨(i 0).val / 256, ht⟩ (1 : Fin 2) * 1 ≤ (i 1).val ∧ (i 1).val < win0_4.index ⟨(i 0).val / 256, ht⟩ (1 : Fin 2) * 1 + 1
    rw [e1]; omega

/-- The output array after the grid is the row losses of the arguments. -/
theorem final (hbody : BodyRow) (c : Dev nD) : (dats m 0 c).arrAt 4 cfg0.N = result m c :=
  (dats m 0 c).arrAt_eq_of_cover 4 (result m c) (fun t _ => flushed_eq m hbody c t) cover

end Cert.KernelIdeal.Blocks

end
-- ==== Proof.HostTail.lean ====
/-
  The program's result. After the grid, two host operations sum the [8192, 1] output column from the zero word and
  divide by the word 8192.0; over the extended reals this is the sum of the 8192 row losses divided by that word: the
  mean loss of the specification. The run's post is then: the result is that mean on every core, and the four
  arguments end as launched.
-/
import proofs.«176112_j1769526526575_2_alg».proof.Proof.OutArray
import Idealize.ShloMosaic.Lib.Pipeline.FrameSuffix
import Idealize.ShloMosaic.PureOps.Ideal.Laws

noncomputable section

namespace Cert.KernelIdeal.Blocks

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-- The program's result, core c: the two host operations after the grid sum the output column from the zero word and
    divide by the word 8192.0, which over the extended reals is the mean of the row losses. -/
theorem tail_eq (hbody : BodyRow) (c : Dev nD) :
    (Pipeline.afterTail₀ cfgs (dats m) 0 (V0 m) [hostOps1] c main_v4 : S_.Idx → EReal)
      = fun _ => Cert.Spec.total (Cert.Spec.rows (m ((c : Thread nD τ).loc main_arg0))) (Cert.Spec.labels (m ((c : Thread nD τ).loc main_arg1)))
          (Cert.Spec.rows (m ((c : Thread nD τ).loc main_arg2))) (Cert.Spec.labels (m ((c : Thread nD τ).loc main_arg3))) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v2) = result m c :=
    (Pipeline.withArrays_arr spec0 launch0.win.arr_inj c _ _ 4).trans (final m hbody c)
  rw [hA]
  funext j
  show Ideal.div (Ideal.hostReduceAdd reducesTo_S8192x1_S_d0_1 (result m c) (Ideal.ofBits .f32 0x00000000#32) j) (Ideal.ofBits .f32 0x46000000#32) = _
  rw [Ideal.hostReduceAdd_total reducesTo_S8192x1_S_d0_1 (fun b => b.elim0), Ideal.ofBits_zero_f32, zero_add, sum_idx2]
  unfold Cert.Spec.total Cert.Spec.c8192
  congr 1
  refine Finset.sum_congr rfl fun a _ => ?_
  rw [Fin.sum_univ_one]
  rfl

/-- The kernel's run, read: on every core the result is the mean of the row losses of the arguments, and the four
    arguments end as launched. -/
theorem kernel_run (hbody : BodyRow) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = (fun _ => Cert.Spec.total (Cert.Spec.rows (m ((c.tc : Thread nD τ).loc main_arg0))) (Cert.Spec.labels (m ((c.tc : Thread nD τ).loc main_arg1)))
            (Cert.Spec.rows (m ((c.tc : Thread nD τ).loc main_arg2))) (Cert.Spec.labels (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m hbody c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Blocks

end
-- ==== Proof.SpecLaws.lean ====
/-
  Facts about the extended reals and one-bit words that relate two spellings of the row loss:
  the exponential of a masked exponent against the masked exponential; "some key is mined" as an
  or-fold against a positive count; complement against exclusive-or with one.
-/
import proofs.«176112_j1769526526575_2_alg».proof.Proof.Spec
import Idealize.ShloMosaic.PureOps.Reduce

noncomputable section

namespace Cert.Spec

open Idealize.ShloMosaic
open scoped BigOperators

theorem bit_cases : ∀ b : BitVec 1, b = 0#1 ∨ b = 1#1 := by decide

/-- exp of a masked exponent (masked by -infinity) is the masked exponential (masked by 0). -/
theorem exp_select_bot (m : BitVec 1) (x : EReal) :
    Ideal.exp (Scalar.select m x ⊥) = Scalar.select m (Ideal.exp x) 0 := by
  unfold Scalar.select
  split
  · rfl
  · exact Ideal.exp_bot

theorem ind_nonneg (b : BitVec 1) : 0 ≤ ind b := by
  rcases bit_cases b with rfl | rfl
  · rw [ind_zero]
  · rw [ind_one]; exact zero_le_one

theorem ind_pos_iff (b : BitVec 1) : 0 < ind b ↔ b = 1#1 := by
  rcases bit_cases b with rfl | rfl
  · rw [ind_zero]; exact ⟨fun h => absurd h (lt_irrefl _), fun h => absurd h (by decide)⟩
  · rw [ind_one]; exact ⟨fun _ => rfl, fun _ => zero_lt_one⟩

theorem ori_eq_one_iff : ∀ a b : BitVec 1, IntOp.ori a b = 1#1 ↔ a = 1#1 ∨ b = 1#1 := by decide

/-- An or-fold from 0 is 1 exactly when some word is. -/
theorem fold_ori_eq_one_iff {ι : Type} [DecidableEq ι] (s : Finset ι) (f : ι → BitVec 1) :
    s.fold IntOp.ori 0#1 f = 1#1 ↔ ∃ j ∈ s, f j = 1#1 := by
  induction s using Finset.induction_on with
  | empty => simp
  | insert a s ha ih =>
    rw [Finset.fold_insert ha, ori_eq_one_iff, ih]
    constructor
    · rintro (h | ⟨j, hj, h⟩)
      · exact ⟨a, Finset.mem_insert_self a s, h⟩
      · exact ⟨j, Finset.mem_insert_of_mem hj, h⟩
    · rintro ⟨j, hj, h⟩
      rcases Finset.mem_insert.1 hj with rfl | hj
      · exact Or.inl h
      · exact Or.inr ⟨j, hj, h⟩

/-- A sum of indicators is positive exactly when some word is 1. -/
theorem sum_ind_pos_iff {ι : Type} (s : Finset ι) (f : ι → BitVec 1) :
    0 < ∑ j ∈ s, ind (f j) ↔ ∃ j ∈ s, f j = 1#1 := by
  have hnn : ∀ j ∈ s, 0 ≤ ind (f j) := fun j _ => ind_nonneg (f j)
  rw [(Finset.sum_nonneg hnn).lt_iff_ne', Ne, Finset.sum_eq_zero_iff_of_nonneg hnn]
  constructor
  · intro h
    by_contra hne
    refine h fun j hj => ?_
    rcases bit_cases (f j) with e | e
    · rw [e, ind_zero]
    · exact absurd ⟨j, hj, e⟩ hne
  · rintro ⟨j, hj, e⟩ h
    have := h j hj
    rw [e, ind_one] at this
    exact one_ne_zero this

/-- "The count is positive", as the comparison's word, is the or-fold. -/
theorem cmp_ogt_count (f : Fin 8192 → BitVec 1) :
    Ideal.cmp .ogt (∑ j : Fin 8192, ind (f j)) 0 = (Finset.univ : Finset (Fin 8192)).fold IntOp.ori 0#1 f := by
  have h1 := sum_ind_pos_iff (Finset.univ : Finset (Fin 8192)) f
  have h2 := fold_ori_eq_one_iff (Finset.univ : Finset (Fin 8192)) f
  show BitVec.ofBool (decide ((0 : EReal) < ∑ j : Fin 8192, ind (f j))) = _
  rcases bit_cases ((Finset.univ : Finset (Fin 8192)).fold IntOp.ori 0#1 f) with e | e
  · rw [e]
    have : ¬ (0 : EReal) < ∑ j : Fin 8192, ind (f j) := fun hp => by
      have := h2.2 (h1.1 hp); rw [e] at this; exact absurd this (by decide)
    rw [decide_eq_false this]; rfl
  · rw [e]
    rw [decide_eq_true (h1.2 (h2.1 e))]; rfl

theorem not_eq_xori : ∀ b : BitVec 1, ~~~b = IntOp.xori b 1#1 := by decide

theorem andi_comm1 : ∀ a b : BitVec 1, IntOp.andi a b = IntOp.andi b a := by decide

end Cert.Spec

end
-- ==== Proof.RefSpec.lean ====
/-
  The reference computes the specification.  Its result, a scalar, is the specification's mean row
  loss at the rows of its first and third arguments and the entries of its second and fourth.

  Read entry by entry: the similarity matrix at (r, j) is the inner product of query row r and key
  row j; the label comparison, the two masks and the mined masks at (r, j) are the specification's
  at row r and key j; the row minimum and maximum (folds of min from +infinity and of max from
  -infinity along the keys) are the specification's folds; the exponential of an exponent masked
  by -infinity is the exponential masked by 0; "some key is mined" (an or-fold along the keys) is
  "the count of mined keys is positive"; the two conjuncts of "valid" commute; the complement of a
  one-bit word is its exclusive-or with 1.  Nothing here needs a finite value.
-/
import proofs.«176112_j1769526526575_2_alg».proof.Proof.SpecLaws
import proofs.«176112_j1769526526575_2_alg».proof.Proof.Gen.ReferenceIdeal.Read
noncomputable section
namespace Cert.ReferenceIdeal.RefValue
open Cert.ReferenceIdeal Cert.ReferenceIdeal.Gen Cert.ReferenceIdeal.Read Idealize.ShloMosaic Idealize.ShloMosaic.ValueIdx Cert.Spec
open scoped BigOperators

/-! ## The composed index maps at coordinates -/

theorem lidx_at (r j : Fin 8192) (k : Fin 128) : lidx_main_v1 (ix2 r j) k = ix2 r k :=
  funext fun a => by match a with | ⟨0, _⟩ => rfl | ⟨1, _⟩ => rfl
theorem ridx_at (r j : Fin 8192) (k : Fin 128) : idx_main_v0 (ridx_main_v1 (ix2 r j) k) = ix2 j k :=
  funext fun a => by match a with | ⟨0, _⟩ => rfl | ⟨1, _⟩ => rfl
theorem keyLabel_at (r j : Fin 8192) : idx_main_v2 (idx_main_v4 (ix2 r j)) = ix1 j :=
  funext fun a => by match a with | ⟨0, _⟩ => rfl
theorem queryLabel_at (r j : Fin 8192) : idx_main_v3 (idx_main_v5 (ix2 r j)) = ix1 r :=
  funext fun a => by match a with | ⟨0, _⟩ => rfl
theorem rowMin_at (r j : Fin 8192) : idx_main_v13 (idx_main_v19 (ix2 r j)) = ix1 r :=
  funext fun a => by match a with | ⟨0, _⟩ => rfl
theorem rowMax_at (r j : Fin 8192) : idx_main_v16 (idx_main_v24 (ix2 r j)) = ix1 r :=
  funext fun a => by match a with | ⟨0, _⟩ => rfl
theorem posTerm_at (r k : Fin 8192) : idx_main_v36 (ix1 r) k = ix2 r k :=
  funext fun a => by match a with | ⟨0, _⟩ => rfl | ⟨1, _⟩ => rfl
theorem negTerm_at (r k : Fin 8192) : idx_main_v43 (ix1 r) k = ix2 r k :=
  funext fun a => by match a with | ⟨0, _⟩ => rfl | ⟨1, _⟩ => rfl

/-- The row-reduction's witness at the literal shapes, and the index it inserts. -/
theorem reducesRow : S8192x8192.Reduces [1] S8192 := by decide
theorem lift_at (r : Fin 8192) (k : Fin 8192) : reducesRow.lift (ix1 r) k = ix2 r k :=
  funext fun a => by match a with | ⟨0, _⟩ => exact Fin.ext rfl | ⟨1, _⟩ => exact Fin.ext rfl

variable (a0 : (⟨S8192x128, .f32⟩ : BufTy).Contents (Elt Ideal)) (a1 : (⟨S8192, .i32⟩ : BufTy).Contents (Elt Ideal))
  (a2 : (⟨S8192x128, .f32⟩ : BufTy).Contents (Elt Ideal)) (a3 : (⟨S8192, .i32⟩ : BufTy).Contents (Elt Ideal))

theorem sim_at (r j : Fin 8192) :
    val_main_v1 (F := Ideal) a0 a2 (ix2 r j) = sim (rows a0 r) (rows a2) j := by
  rw [val_main_v1_apply]
  unfold sim rows
  refine Finset.sum_congr rfl fun k _ => ?_
  rw [val_main_v0_apply, lidx_at, ridx_at]

theorem same_at (r j : Fin 8192) :
    val_main_v6 (F := Ideal) a1 a3 (ix2 r j) = same (labels a1 r) (labels a3) j := by
  rw [val_main_v6_apply, val_main_v4_apply, val_main_v2_apply, val_main_v5_apply, val_main_v3_apply, keyLabel_at, queryLabel_at]
  rfl

theorem posMask_at (r j : Fin 8192) :
    val_main_v9 (F := Ideal) a0 a1 a2 a3 (ix2 r j) = posMask (rows a0 r) (labels a1 r) (rows a2) (labels a3) j := by
  rw [val_main_v9_apply, val_main_v8_apply, val_main_v7_apply, val_main_cst_apply, same_at, sim_at]
  rfl

theorem negMask_at (r j : Fin 8192) :
    val_main_v10 (F := Ideal) a1 a3 (ix2 r j) = negMask (labels a1 r) (labels a3) j := by
  rw [val_main_v10_apply, same_at, not_eq_xori]
  rfl

/-- The masked similarity the row minimum folds. -/
theorem minTerm_at (r j : Fin 8192) :
    val_main_v11 (F := Ideal) a0 a1 a2 a3 (ix2 r j)
      = Scalar.select (posMask (rows a0 r) (labels a1 r) (rows a2) (labels a3) j) (sim (rows a0 r) (rows a2) j) ⊤ := by
  rw [val_main_v11_apply, posMask_at, sim_at, val_main_call0_v1_apply, val_main_call0_v0_apply, val_main_cst_0_apply]
  exact congrArg _ ofBits_inf

theorem maxTerm_at (r j : Fin 8192) :
    val_main_v14 (F := Ideal) a0 a1 a2 a3 (ix2 r j)
      = Scalar.select (negMask (labels a1 r) (labels a3) j) (sim (rows a0 r) (rows a2) j) ⊥ := by
  rw [val_main_v14_apply, negMask_at, sim_at, val_main_call1_v1_apply, val_main_call1_v0_apply, val_main_cst_2_apply]
  exact congrArg _ ofBits_ninf

theorem minPos_at (r : Fin 8192) :
    val_main_v12 (F := Ideal) a0 a1 a2 a3 (ix1 r) = minPos (rows a0 r) (labels a1 r) (rows a2) (labels a3) := by
  unfold val_main_v12
  rw [Host.reduce_eq_fold_single (FloatOps.minimumf (F := Ideal) (φ := .f32)) _ _ _ reducesRow, val_main_cst_1_apply]
  have e : (val_main_v11 (F := Ideal) a0 a1 a2 a3 ∘ reducesRow.lift (ix1 r))
      = fun j : Fin 8192 => Scalar.select (posMask (rows a0 r) (labels a1 r) (rows a2) (labels a3) j) (sim (rows a0 r) (rows a2) j) ⊤ :=
    funext fun (j : Fin 8192) => (congrArg (val_main_v11 (F := Ideal) a0 a1 a2 a3) (lift_at r j)).trans (minTerm_at a0 a1 a2 a3 r j)
  rw [e]
  show (Finset.univ : Finset (Fin 8192)).fold min (Ideal.ofBits .f32 0x7F800000#32) _ = _
  rw [ofBits_inf]
  rfl

theorem maxNeg_at (r : Fin 8192) :
    val_main_v15 (F := Ideal) a0 a1 a2 a3 (ix1 r) = maxNeg (rows a0 r) (labels a1 r) (rows a2) (labels a3) := by
  unfold val_main_v15
  rw [Host.reduce_eq_fold_single (FloatOps.maximumf (F := Ideal) (φ := .f32)) _ _ _ reducesRow, val_main_cst_3_apply]
  have e : (val_main_v14 (F := Ideal) a0 a1 a2 a3 ∘ reducesRow.lift (ix1 r))
      = fun j : Fin 8192 => Scalar.select (negMask (labels a1 r) (labels a3) j) (sim (rows a0 r) (rows a2) j) ⊥ :=
    funext fun (j : Fin 8192) => (congrArg (val_main_v14 (F := Ideal) a0 a1 a2 a3) (lift_at r j)).trans (maxTerm_at a0 a1 a2 a3 r j)
  rw [e]
  show (Finset.univ : Finset (Fin 8192)).fold max (Ideal.ofBits .f32 0xFF800000#32) _ = _
  rw [ofBits_ninf]
  rfl

theorem negM_at (r j : Fin 8192) :
    val_main_v21 (F := Ideal) a0 a1 a2 a3 (ix2 r j) = negM (rows a0 r) (labels a1 r) (rows a2) (labels a3) j := by
  rw [val_main_v21_apply, negMask_at, val_main_v20_apply, val_main_v18_apply, sim_at, val_main_v17_apply, val_main_cst_4_apply,
    val_main_v19_apply, val_main_v13_apply, rowMin_at, minPos_at]
  rfl

theorem posM_at (r j : Fin 8192) :
    val_main_v26 (F := Ideal) a0 a1 a2 a3 (ix2 r j) = posM (rows a0 r) (labels a1 r) (rows a2) (labels a3) j := by
  rw [val_main_v26_apply, posMask_at, val_main_v25_apply, val_main_v23_apply, sim_at, val_main_v22_apply, val_main_cst_5_apply,
    val_main_v24_apply, val_main_v16_apply, rowMax_at, maxNeg_at]
  rfl

theorem posSum_at (r : Fin 8192) :
    val_main_v36 (F := Ideal) a0 a1 a2 a3 (ix1 r) = posSum (rows a0 r) (labels a1 r) (rows a2) (labels a3) := by
  rw [val_main_v36_apply, val_main_cst_10_apply]
  show Ideal.ofBits .f32 0x00000000#32 + _ = _
  rw [Ideal.ofBits_zero_f32, zero_add]
  unfold posSum
  refine Finset.sum_congr rfl fun k _ => ?_
  rw [posTerm_at, val_main_v35_apply, val_main_v34_apply, posM_at, val_main_v33_apply, val_main_v32_apply, val_main_cst_8_apply,
    val_main_v31_apply, sim_at, val_main_v30_apply, val_main_cst_7_apply, val_main_call2_v1_apply, val_main_call2_v0_apply,
    val_main_cst_9_apply]
  refine Eq.trans ?_ (exp_select_bot _ _)
  show Ideal.exp (Scalar.select _ _ (Ideal.ofBits .f32 0xFF800000#32)) = _
  rw [ofBits_ninf]
  rfl

theorem negSum_at (r : Fin 8192) :
    val_main_v43 (F := Ideal) a0 a1 a2 a3 (ix1 r) = negSum (rows a0 r) (labels a1 r) (rows a2) (labels a3) := by
  rw [val_main_v43_apply, val_main_cst_14_apply]
  show Ideal.ofBits .f32 0x00000000#32 + _ = _
  rw [Ideal.ofBits_zero_f32, zero_add]
  unfold negSum
  refine Finset.sum_congr rfl fun k _ => ?_
  rw [negTerm_at, val_main_v42_apply, val_main_v41_apply, negM_at, val_main_v40_apply, val_main_v39_apply, val_main_cst_12_apply,
    val_main_v38_apply, sim_at, val_main_v37_apply, val_main_cst_11_apply, val_main_call3_v1_apply, val_main_call3_v0_apply,
    val_main_cst_13_apply]
  refine Eq.trans ?_ (exp_select_bot _ _)
  show Ideal.exp (Scalar.select _ _ (Ideal.ofBits .f32 0xFF800000#32)) = _
  rw [ofBits_ninf]
  rfl

/-- "Some negative is mined", the reference's or-fold, is the kernel's "the count is positive". -/
theorem anyNeg_at (r : Fin 8192) :
    val_main_v27 (F := Ideal) a0 a1 a2 a3 (ix1 r) = Ideal.cmp .ogt (cntNeg (rows a0 r) (labels a1 r) (rows a2) (labels a3)) 0 := by
  unfold val_main_v27
  rw [Host.reduce_eq_fold_single (IntOp.ori (w := 1)) _ _ _ reducesRow, val_main_c_apply]
  have e : (val_main_v21 (F := Ideal) a0 a1 a2 a3 ∘ reducesRow.lift (ix1 r))
      = fun j : Fin 8192 => negM (rows a0 r) (labels a1 r) (rows a2) (labels a3) j :=
    funext fun (j : Fin 8192) => (congrArg (val_main_v21 (F := Ideal) a0 a1 a2 a3) (lift_at r j)).trans (negM_at a0 a1 a2 a3 r j)
  rw [e]
  exact (cmp_ogt_count _).symm

theorem anyPos_at (r : Fin 8192) :
    val_main_v28 (F := Ideal) a0 a1 a2 a3 (ix1 r) = Ideal.cmp .ogt (cntPos (rows a0 r) (labels a1 r) (rows a2) (labels a3)) 0 := by
  unfold val_main_v28
  rw [Host.reduce_eq_fold_single (IntOp.ori (w := 1)) _ _ _ reducesRow, val_main_c_6_apply]
  have e : (val_main_v26 (F := Ideal) a0 a1 a2 a3 ∘ reducesRow.lift (ix1 r))
      = fun j : Fin 8192 => posM (rows a0 r) (labels a1 r) (rows a2) (labels a3) j :=
    funext fun (j : Fin 8192) => (congrArg (val_main_v26 (F := Ideal) a0 a1 a2 a3) (lift_at r j)).trans (posM_at a0 a1 a2 a3 r j)
  rw [e]
  exact (cmp_ogt_count _).symm

theorem rowLoss_at (r : Fin 8192) :
    val_main_v51 (F := Ideal) a0 a1 a2 a3 (ix1 r) = rowLoss (rows a0 r) (labels a1 r) (rows a2) (labels a3) := by
  rw [val_main_v51_apply, val_main_v29_apply, anyNeg_at, anyPos_at, andi_comm1, val_main_v50_apply, val_main_v46_apply,
    val_main_v44_apply, posSum_at, val_main_v45_apply, val_main_cst_15_apply, val_main_v49_apply, val_main_v47_apply, negSum_at,
    val_main_v48_apply, val_main_cst_16_apply, val_main_call4_v1_apply, val_main_call4_v0_apply, val_main_cst_17_apply]
  unfold rowLoss
  exact congrArg (Scalar.select _ _) Ideal.ofBits_zero_f32

/-- The entries of an [8192] array against its coordinates. -/
def idxEquiv1 : Fin 8192 ≃ S8192.Idx where
  toFun := ix1
  invFun j := j 0
  left_inv _ := rfl
  right_inv j := (eq_ix1 j).symm

/-- The reference's result is the specification's mean row loss. -/
theorem ref_val :
    val_main_v53 (F := Ideal) a0 a1 a2 a3 = fun _ => total (rows a0) (labels a1) (rows a2) (labels a3) := by
  funext i
  rw [val_main_v53_apply, val_main_v52_apply, val_main_cst_18_apply, val_main_cst_19_apply]
  show Ideal.div (Ideal.ofBits .f32 0x00000000#32 + _) _ = _
  rw [Ideal.ofBits_zero_f32, zero_add, ← Equiv.sum_comp idxEquiv1]
  unfold total
  refine congrArg (Ideal.div · _) (Finset.sum_congr rfl fun r _ => ?_)
  exact rowLoss_at a0 a1 a2 a3 r

open Idealize.ShloMosaic.TcCoe Idealize.SL.Sem in
/-- The same of the run's result term. -/
theorem ref_total (m : (ℓ : Loc nD τ sig) → Buf (Elt Ideal) ℓ) (c : Dev nD) :
    Cert.ReferenceIdeal.Value.res_main_v53 (F := Ideal) m c
      = fun _ => total (rows (m ((c.tc : Thread nD τ).loc main_arg0))) (labels (m ((c.tc : Thread nD τ).loc main_arg1)))
          (rows (m ((c.tc : Thread nD τ).loc main_arg2))) (labels (m ((c.tc : Thread nD τ).loc main_arg3))) :=
  (val_main_v53_eq (F := Ideal) m c).trans (ref_val _ _ _ _)

end Cert.ReferenceIdeal.RefValue
end
-- ==== Proof.lean ====
/-
  The claim: the kernel and the reference compute the same mean multi-similarity loss.

  Over the extended reals both programs end with the scalar  (∑ over the 8192 query rows of the row's loss) / 8192.0,
  where a row's loss is a function of the query row, its label, all the key rows and all the key labels
  (the specification). The kernel: each of the 32 grid points leaves in its block of the [8192, 1] output column the row
  losses of its 256 query rows; the blocks cover the column; the host then sums the column from zero and divides by
  8192.0. The reference: its composed operations, read entry by entry, are the same row losses, summed and divided the
  same way. With arguments that agree the two results are one term, so they are equal; no finiteness of the inputs is
  used. The kernel's idealization rewrote nothing, and every program leaves its arguments as launched.
-/
import proofs.«176112_j1769526526575_2_alg».proof.Defs
import proofs.«176112_j1769526526575_2_alg».proof.Proof.Gen.Kernel
import proofs.«176112_j1769526526575_2_alg».proof.Proof.Gen.KernelIdeal
import proofs.«176112_j1769526526575_2_alg».proof.Proof.Gen.ReferenceIdeal
import proofs.«176112_j1769526526575_2_alg».proof.Proof.Gen.ReferenceIdeal.Run
import proofs.«176112_j1769526526575_2_alg».proof.Proof.Gen.Pre_finite_inputs
import proofs.«176112_j1769526526575_2_alg».proof.Proof.KernelFrame
import proofs.«176112_j1769526526575_2_alg».proof.Proof.KernelIdealFrame
import proofs.«176112_j1769526526575_2_alg».proof.Proof.KernelIdealRow
import proofs.«176112_j1769526526575_2_alg».proof.Proof.HostTail
import proofs.«176112_j1769526526575_2_alg».proof.Proof.RefSpec
import Idealize.ShloMosaic.Adequacy
import Idealize.ShloMosaic.Init

noncomputable section

namespace Cert.Proof

open Idealize.ShloMosaic Idealize.SL.Sem

/-- The kernel runs and leaves its arguments as launched. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- So does the reference: its run's post, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from arguments that agree, both programs end with the specification's mean row loss of the
    kernel's arguments. -/
theorem algebraic : Cert.algebraic_KernelIdeal_ReferenceIdeal := by
  intro m ρ m' ρ' _ hagree
  refine ⟨_, Cert.KernelIdeal.Blocks.kernel_run m (fun x0 x1 x2 x3 r => Cert.KernelIdeal.Row.body_row x0 x1 x2 x3 r) ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.ref_total, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
